-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256 : Shape := ⟨3, ![8, 128, 256]⟩
abbrev S768x512 : Shape := ⟨2, ![768, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S8x128x256 : S_.BroadcastsInDim S8x128x256 (![] : Fin 0 → Fin S8x128x256.rank)
  reducesTo_S8x128x256_S_d0_1_2 : S8x128x256.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S8x128x256 .f32) (main_arg1 : FVec F S8x128x256 .f32) (main_arg2 : FVec F S768x512 .f32) (main_arg3 : FVec F S512 .f32) (main_arg4 : FVec F S512 .f32) (main_arg5 : FVec F S512 .f32) (main_arg6 : FVec F S512x1 .f32) (main_arg7 : FVec F S1 .f32) : IVec S_ 1 :=
  let main_v0 : FVec F S8x128x256 .f32 := Host.absf main_arg0
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_c : IVec S_ 1 := constantI S_ 1 1#1
  let main_v3 : IVec S_ 1 := (fun x v => Host.reduce IntOp.andi x v reducesTo_S8x128x256_S_d0_1_2 h_S_) main_v2 main_c
  let main_v4 : FVec F S8x128x256 .f32 := Host.absf main_arg1
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_c_1 : IVec S_ 1 := constantI S_ 1 1#1
  let main_v7 : IVec S_ 1 := (fun x v => Host.reduce IntOp.andi x v reducesTo_S8x128x256_S_d0_1_2 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x128x256 : Shape := ⟨3, ![8, 128, 256]⟩
abbrev S768x512 : Shape := ⟨2, ![768, 512]⟩
abbrev S512 : Shape := ⟨1, ![512]⟩
abbrev S512x1 : Shape := ⟨2, ![512, 1]⟩
abbrev S1 : Shape := ⟨1, ![1]⟩
abbrev S8x128x128 : Shape := ⟨3, ![8, 128, 128]⟩
abbrev S1x16x256 : Shape := ⟨3, ![1, 16, 256]⟩
abbrev S1x128x256 : Shape := ⟨3, ![1, 128, 256]⟩
abbrev S1x16x128 : Shape := ⟨3, ![1, 16, 128]⟩
abbrev S16x256 : Shape := ⟨2, ![16, 256]⟩
abbrev S128x256 : Shape := ⟨2, ![128, 256]⟩
abbrev S16 : Shape := ⟨1, ![16]⟩
abbrev S16x1 : Shape := ⟨2, ![16, 1]⟩
abbrev S128 : Shape := ⟨1, ![128]⟩
abbrev S128x1 : Shape := ⟨2, ![128, 1]⟩
abbrev S256x512 : Shape := ⟨2, ![256, 512]⟩
abbrev S16x512 : Shape := ⟨2, ![16, 512]⟩
abbrev S128x512 : Shape := ⟨2, ![128, 512]⟩
abbrev S16x1x256 : Shape := ⟨3, ![16, 1, 256]⟩
abbrev S16x128x256 : Shape := ⟨3, ![16, 128, 256]⟩
abbrev S2048x256 : Shape := ⟨2, ![2048, 256]⟩
abbrev S2048x512 : Shape := ⟨2, ![2048, 512]⟩
abbrev S16x128x512 : Shape := ⟨3, ![16, 128, 512]⟩
abbrev S16x1x512 : Shape := ⟨3, ![16, 1, 512]⟩
abbrev S1x128x512 : Shape := ⟨3, ![1, 128, 512]⟩
abbrev S1x1x512 : Shape := ⟨3, ![1, 1, 512]⟩
abbrev S16x128 : Shape := ⟨2, ![16, 128]⟩
abbrev S16x128x1 : Shape := ⟨3, ![16, 128, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x128x256, .f32⟩
  | .hbm, ⟨1, _⟩ => ⟨S8x128x256, .f32⟩
  | .hbm, ⟨2, _⟩ => ⟨S768x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S8x128x128, .f32⟩
  | .local _ .vmem, ⟨0, _⟩ => ⟨S1x16x256, .f32⟩
  | .local _ .vmem, ⟨1, _⟩ => ⟨S1x16x256, .f32⟩
  | .local _ .vmem, ⟨2, _⟩ => ⟨S1x128x256, .f32⟩
  | .local _ .vmem, ⟨3, _⟩ => ⟨S1x128x256, .f32⟩
  | .local _ .vmem, ⟨4, _⟩ => ⟨S768x512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512x1, .f32⟩
  | .local _ .vmem, ⟨9, _⟩ => ⟨S1, .f32⟩
  | .local _ .vmem, ⟨10, _⟩ => ⟨S1x16x128, .f32⟩
  | .local _ .vmem, ⟨11, _⟩ => ⟨S1x16x128, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  reduces_S16x256_S16 : S16x256.Reduces [1] S16
  shapeCasts_S16_S16x1 : S16.ShapeCasts S16x1
  broadcasts_S16x1_S16x256 : S16x1.Broadcasts S16x256
  reduces_S128x256_S128 : S128x256.Reduces [1] S128
  shapeCasts_S128_S128x1 : S128.ShapeCasts S128x1
  broadcasts_S128x1_S128x256 : S128x1.Broadcasts S128x256
  inb_S768x512_S768x512_0_0 : ∀ a, (![0, 0] : Fin 2 → Nat) a + S768x512.size a ≤ S768x512.size a
  h_S768x512 : 0 < S768x512.numel
  slices_S768x512_o0_0_S256x512 : S768x512.Slices ![0, 0] S256x512
  slices_S768x512_o256_0_S256x512 : S768x512.Slices ![256, 0] S256x512
  slices_S768x512_o512_0_S256x512 : S768x512.Slices ![512, 0] S256x512
  bitsLt_bf16_f32 : FTy.bits .bf16 < FTy.bits .f32
  shapeCasts_S16x256_S16x1x256 : S16x256.ShapeCasts S16x1x256
  shapeCasts_S128x256_S1x128x256 : S128x256.ShapeCasts S1x128x256
  broadcasts_S16x1x256_S16x128x256 : S16x1x256.Broadcasts S16x128x256
  broadcasts_S1x128x256_S16x128x256 : S1x128x256.Broadcasts S16x128x256
  shapeCasts_S16x128x256_S2048x256 : S16x128x256.ShapeCasts S2048x256
  shapeCasts_S2048x512_S16x128x512 : S2048x512.ShapeCasts S16x128x512
  inb_S512_S512_0 : ∀ a, (![0] : Fin 1 → Nat) a + S512.size a ≤ S512.size a
  h_S512 : 0 < S512.numel
  shapeCasts_S16x512_S16x1x512 : S16x512.ShapeCasts S16x1x512
  shapeCasts_S128x512_S1x128x512 : S128x512.ShapeCasts S1x128x512
  broadcasts_S16x1x512_S16x128x512 : S16x1x512.Broadcasts S16x128x512
  broadcasts_S1x128x512_S16x128x512 : S1x128x512.Broadcasts S16x128x512
  shapeCasts_S512_S1x1x512 : S512.ShapeCasts S1x1x512
  broadcasts_S1x1x512_S16x128x512 : S1x1x512.Broadcasts S16x128x512
  reduces_S16x128x512_S16x128 : S16x128x512.Reduces [2] S16x128
  shapeCasts_S16x128_S16x128x1 : S16x128.ShapeCasts S16x128x1
  broadcasts_S16x128x1_S16x128x512 : S16x128x1.Broadcasts S16x128x512
  inb_S512x1_S512x1_0_0 : ∀ a, (![0, 0] : Fin 2 → Nat) a + S512x1.size a ≤ S512x1.size a
  h_S512x1 : 0 < S512x1.numel
  shapeCasts_S512x1_S512 : S512x1.ShapeCasts S512
  inb_S1_S1_0 : ∀ a, (![0] : Fin 1 → Nat) a + S1.size a ≤ S1.size a
  h_S1 : 0 < S1.numel
  inpos_S1_p0 : ∀ a, (![0] : Fin 1 → Nat) a < S1.size a
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  dot_S16x256_S256x512_S16x512_1_0_0_1_n_n_wf : DotDims.WF S16x256 S256x512 S16x512 [1] [0] [0] [1] [] []
  dot_S128x256_S256x512_S128x512_1_0_0_1_n_n_wf : DotDims.WF S128x256 S256x512 S128x512 [1] [0] [0] [1] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256.size a ≤ S8x128x256.size a
  hwx0_0 : ∀ i : grid0.Coords, EltTy.bits .f32 = 32 ∨ (Rect.block (s := S8x128x256) S1x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S8x128x256.size a
  hwx0_1 : ∀ i : grid0.Coords, EltTy.bits .f32 = 32 ∨ (Rect.block (s := S8x128x256) S1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .f32 = 32 ∨ (Rect.block (s := S768x512) S768x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x128.size a ≤ S8x128x128.size a
  hwx0_8 : ∀ i : grid0.Coords, EltTy.bits .f32 = 32 ∨ (Rect.block (s := S8x128x128) S1x16x128.size (cc0_transform_8 i) (hinb0_8 i)).WholeWords (EltTy.packing .f32)

variable [Facts₀]

def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S1x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x16x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x128x256 : Shape := ⟨3, ![8, 128, 256]⟩
abbrev S768x512 : Shape := ⟨2, ![768, 512]⟩
abbrev S512 : Shape := ⟨1, ![512]⟩
abbrev S512x1 : Shape := ⟨2, ![512, 1]⟩
abbrev S1 : Shape := ⟨1, ![1]⟩
abbrev S_ : Shape := ⟨0, ![]⟩
abbrev S8x128 : Shape := ⟨2, ![8, 128]⟩
abbrev S8x128x1 : Shape := ⟨3, ![8, 128, 1]⟩
abbrev S8x128x1x256 : Shape := ⟨4, ![8, 128, 1, 256]⟩
abbrev S8x1x128x256 : Shape := ⟨4, ![8, 1, 128, 256]⟩
abbrev S8x128x128x256 : Shape := ⟨4, ![8, 128, 128, 256]⟩
abbrev S8x128x128x768 : Shape := ⟨4, ![8, 128, 128, 768]⟩
abbrev S8x128x128x512 : Shape := ⟨4, ![8, 128, 128, 512]⟩
abbrev S1x1x1x512 : Shape := ⟨4, ![1, 1, 1, 512]⟩
abbrev S8x128x128 : Shape := ⟨3, ![8, 128, 128]⟩
abbrev S8x128x128x1 : Shape := ⟨4, ![8, 128, 128, 1]⟩

abbrev nBuf : Space → Nat
  | .hbm => 84
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S8x128x256, .f32⟩
  | .hbm, ⟨2, _⟩ => ⟨S768x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S8x128x256, .f32⟩
  | .hbm, ⟨9, _⟩ => ⟨S_, .f32⟩
  | .hbm, ⟨10, _⟩ => ⟨S8x128, .f32⟩
  | .hbm, ⟨11, _⟩ => ⟨S8x128x1, .f32⟩
  | .hbm, ⟨12, _⟩ => ⟨S8x128x1, .f32⟩
  | .hbm, ⟨13, _⟩ => ⟨S_, .f32⟩
  | .hbm, ⟨14, _⟩ => ⟨S8x128x1, .f32⟩
  | .hbm, ⟨15, _⟩ => ⟨S8x128x1, .f32⟩
  | .hbm, ⟨16, _⟩ => ⟨S8x128x256, .f32⟩
  | .hbm, ⟨17, _⟩ => ⟨S8x128x256, .f32⟩
  | .hbm, ⟨18, _⟩ => ⟨S8x128x256, .f32⟩
  | .hbm, ⟨19, _⟩ => ⟨S_, .f32⟩
  | .hbm, ⟨20, _⟩ => ⟨S8x128, .f32⟩
  | .hbm, ⟨21, _⟩ => ⟨S8x128x1, .f32⟩
  | .hbm, ⟨22, _⟩ => ⟨S8x128x1, .f32⟩
  | .hbm, ⟨23, _⟩ => ⟨S_, .f32⟩
  | .hbm, ⟨24, _⟩ => ⟨S8x128x1, .f32⟩
  | .hbm, ⟨25, _⟩ => ⟨S8x128x1, .f32⟩
  | .hbm, ⟨26, _⟩ => ⟨S8x128x256, .f32⟩
  | .hbm, ⟨27, _⟩ => ⟨S8x128x256, .f32⟩
  | .hbm, ⟨28, _⟩ => ⟨S8x128x1x256, .f32⟩
  | .hbm, ⟨29, _⟩ => ⟨S8x1x128x256, .f32⟩
  | .hbm, ⟨30, _⟩ => ⟨S8x128x128x256, .f32⟩
  | .hbm, ⟨31, _⟩ => ⟨S8x128x128x256, .f32⟩
  | .hbm, ⟨32, _⟩ => ⟨S8x128x128x256, .f32⟩
  | .hbm, ⟨33, _⟩ => ⟨S8x128x128x256, .f32⟩
  | .hbm, ⟨34, _⟩ => ⟨S8x128x128x256, .f32⟩
  | .hbm, ⟨35, _⟩ => ⟨S8x128x128x256, .f32⟩
  | .hbm, ⟨36, _⟩ => ⟨S8x128x128x768, .f32⟩
  | .hbm, ⟨37, _⟩ => ⟨S8x128x128x512, .f32⟩
  | .hbm, ⟨38, _⟩ => ⟨S1x1x1x512, .f32⟩
  | .hbm, ⟨39, _⟩ => ⟨S8x128x128x512, .f32⟩
  | .hbm, ⟨40, _⟩ => ⟨S8x128x128x512, .f32⟩
  | .hbm, ⟨41, _⟩ => ⟨S_, .f32⟩
  | .hbm, ⟨42, _⟩ => ⟨S8x128x128, .f32⟩
  | .hbm, ⟨43, _⟩ => ⟨S8x128x128x1, .f32⟩
  | .hbm, ⟨44, _⟩ => ⟨S_, .f32⟩
  | .hbm, ⟨45, _⟩ => ⟨S8x128x128x1, .f32⟩
  | .hbm, ⟨46, _⟩ => ⟨S8x128x128x1, .f32⟩
  | .hbm, ⟨47, _⟩ => ⟨S8x128x128x512, .f32⟩
  | .hbm, ⟨48, _⟩ => ⟨S8x128x128x512, .f32⟩
  | .hbm, ⟨49, _⟩ => ⟨S8x128x128x512, .f32⟩
  | .hbm, ⟨50, _⟩ => ⟨S_, .f32⟩
  | .hbm, ⟨51, _⟩ => ⟨S8x128x128, .f32⟩
  | .hbm, ⟨52, _⟩ => ⟨S8x128x128x1, .f32⟩
  | .hbm, ⟨53, _⟩ => ⟨S_, .f32⟩
  | .hbm, ⟨54, _⟩ => ⟨S8x128x128x1, .f32⟩
  | .hbm, ⟨55, _⟩ => ⟨S8x128x128x1, .f32⟩
  | .hbm, ⟨56, _⟩ => ⟨S8x128x128x512, .f32⟩
  | .hbm, ⟨57, _⟩ => ⟨S8x128x128x512, .f32⟩
  | .hbm, ⟨58, _⟩ => ⟨S_, .f32⟩
  | .hbm, ⟨59, _⟩ => ⟨S8x128x128x1, .f32⟩
  | .hbm, ⟨60, _⟩ => ⟨S8x128x128x1, .f32⟩
  | .hbm, ⟨61, _⟩ => ⟨S8x128x128x1, .f32⟩
  | .hbm, ⟨62, _⟩ => ⟨S8x128x128x512, .f32⟩
  | .hbm, ⟨63, _⟩ => ⟨S8x128x128x512, .f32⟩
  | .hbm, ⟨64, _⟩ => ⟨S1x1x1x512, .f32⟩
  | .hbm, ⟨65, _⟩ => ⟨S8x128x128x512, .f32⟩
  | .hbm, ⟨66, _⟩ => ⟨S8x128x128x512, .f32⟩
  | .hbm, ⟨67, _⟩ => ⟨S1x1x1x512, .f32⟩
  | .hbm, ⟨68, _⟩ => ⟨S8x128x128x512, .f32⟩
  | .hbm, ⟨69, _⟩ => ⟨S8x128x128x512, .f32⟩
  | .hbm, ⟨70, _⟩ => ⟨S8x128x128x512, .f32⟩
  | .hbm, ⟨71, _⟩ => ⟨S8x128x128x512, .f32⟩
  | .hbm, ⟨72, _⟩ => ⟨S_, .f32⟩
  | .hbm, ⟨73, _⟩ => ⟨S8x128x128x512, .f32⟩
  | .hbm, ⟨74, _⟩ => ⟨S8x128x128x512, .f32⟩
  | .hbm, ⟨75, _⟩ => ⟨S_, .f32⟩
  | .hbm, ⟨76, _⟩ => ⟨S8x128x128x512, .f32⟩
  | .hbm, ⟨77, _⟩ => ⟨S8x128x128x512, .f32⟩
  | .hbm, ⟨78, _⟩ => ⟨S8x128x128x512, .f32⟩
  | .hbm, ⟨79, _⟩ => ⟨S8x128x128x1, .f32⟩
  | .hbm, ⟨80, _⟩ => ⟨S8x128x128, .f32⟩
  | .hbm, ⟨81, _⟩ => ⟨S_, .f32⟩
  | .hbm, ⟨82, _⟩ => ⟨S8x128x128, .f32⟩
  | .hbm, ⟨83, _⟩ => ⟨S8x128x128, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]

class Facts₀ : Prop where
  reducesTo_S8x128x256_S8x128_d2 : S8x128x256.ReducesTo [2] S8x128
  h_S_ : 0 < S_.numel
  bcast_S8x128_S8x128x1_0_1 : S8x128.BroadcastsInDim S8x128x1 (![0, 1] : Fin 2 → Fin S8x128x1.rank)
  bcast_S_S8x128x1 : S_.BroadcastsInDim S8x128x1 (![] : Fin 0 → Fin S8x128x1.rank)
  bcast_S8x128x1_S8x128x256_0_1_2 : S8x128x1.BroadcastsInDim S8x128x256 (![0, 1, 2] : Fin 3 → Fin S8x128x256.rank)
  bcast_S8x128x256_S8x128x1x256_0_1_3 : S8x128x256.BroadcastsInDim S8x128x1x256 (![0, 1, 3] : Fin 3 → Fin S8x128x1x256.rank)
  bcast_S8x128x256_S8x1x128x256_0_2_3 : S8x128x256.BroadcastsInDim S8x1x128x256 (![0, 2, 3] : Fin 3 → Fin S8x1x128x256.rank)
  bcast_S8x128x1x256_S8x128x128x256_0_1_2_3 : S8x128x1x256.BroadcastsInDim S8x128x128x256 (![0, 1, 2, 3] : Fin 4 → Fin S8x128x128x256.rank)
  bcast_S8x1x128x256_S8x128x128x256_0_1_2_3 : S8x1x128x256.BroadcastsInDim S8x128x128x256 (![0, 1, 2, 3] : Fin 4 → Fin S8x128x128x256.rank)
  concatenates_S8x128x128x256_S8x128x128x256_S8x128x128x256_S8x128x128x768_d3 : Shape.Concatenates [S8x128x128x256, S8x128x128x256, S8x128x128x256] S8x128x128x768 3
  bcast_S512_S1x1x1x512_3 : S512.BroadcastsInDim S1x1x1x512 (![3] : Fin 1 → Fin S1x1x1x512.rank)
  bcast_S1x1x1x512_S8x128x128x512_0_1_2_3 : S1x1x1x512.BroadcastsInDim S8x128x128x512 (![0, 1, 2, 3] : Fin 4 → Fin S8x128x128x512.rank)
  reducesTo_S8x128x128x512_S8x128x128_d3 : S8x128x128x512.ReducesTo [3] S8x128x128
  bcast_S8x128x128_S8x128x128x1_0_1_2 : S8x128x128.BroadcastsInDim S8x128x128x1 (![0, 1, 2] : Fin 3 → Fin S8x128x128x1.rank)
  bcast_S_S8x128x128x1 : S_.BroadcastsInDim S8x128x128x1 (![] : Fin 0 → Fin S8x128x128x1.rank)
  bcast_S8x128x128x1_S8x128x128x512_0_1_2_3 : S8x128x128x1.BroadcastsInDim S8x128x128x512 (![0, 1, 2, 3] : Fin 4 → Fin S8x128x128x512.rank)
  bcast_S_S8x128x128x512 : S_.BroadcastsInDim S8x128x128x512 (![] : Fin 0 → Fin S8x128x128x512.rank)
  shapeCasts_S8x128x128x1_S8x128x128 : S8x128x128x1.ShapeCasts S8x128x128
  shapeCasts_S1_S_ : S1.ShapeCasts S_
  bcast_S_S8x128x128 : S_.BroadcastsInDim S8x128x128 (![] : Fin 0 → Fin S8x128x128.rank)
  dot_S8x128x128x768_S768x512_S8x128x128x512_3_0_012_1_n_n_wf : DotDims.WF S8x128x128x768 S768x512 S8x128x128x512 [3] [0] [0, 1, 2] [1] [] []
  dot_S8x128x128x512_S512x1_S8x128x128x1_3_0_012_1_n_n_wf : DotDims.WF S8x128x128x512 S512x1 S8x128x128x1 [3] [0] [0, 1, 2] [1] [] []

variable [Facts₀]

def dot_S8x128x128x768_S768x512_S8x128x128x512_3_0_012_1_n_n : DotDims S8x128x128x768 S768x512 S8x128x128x512 where
  lhsContracting := [3]
  rhsContracting := [0]
  lhsNonContracting := [0, 1, 2]
  rhsNonContracting := [1]
  lhsBatch := []
  rhsBatch := []
  wf := dot_S8x128x128x768_S768x512_S8x128x128x512_3_0_012_1_n_n_wf
def dot_S8x128x128x512_S512x1_S8x128x128x1_3_0_012_1_n_n : DotDims S8x128x128x512 S512x1 S8x128x128x1 where
  lhsContracting := [3]
  rhsContracting := [0]
  lhsNonContracting := [0, 1, 2]
  rhsNonContracting := [1]
  lhsBatch := []
  rhsBatch := []
  wf := dot_S8x128x128x512_S512x1_S8x128x128x1_3_0_012_1_n_n_wf

class Facts : Prop extends Facts₀ where

variable [Facts]
-- ==== Proof.LibConcatDot.lean ====
/-
  A general lemma file: a finite sum over `3K` consecutive positions is the sum of its three
  consecutive blocks of `K` positions. No program is imported.

  This is the algebra behind "one product against three stacked blocks is the sum of three
  products": when the positions `0 … 3K-1` of a contraction are the concatenation of three
  families of length `K`, the contraction is the first family's contribution, plus the second's,
  plus the third's, associated `(a + b) + c`. It holds in any additive commutative monoid; it is
  stated for a general `K`, and again at `K = 128` over `Fin 384` with the literals written out.
-/
import Mathlib.Algebra.BigOperators.Fin

noncomputable section

namespace ConcatDot

open scoped BigOperators

variable {M : Type*} [AddCommMonoid M]

/-- A sum over `3K` positions, split into the blocks `[0, K)`, `[K, 2K)` and `[2K, 3K)`:
    position `k` of the second block is position `K + k` of the whole, and of the third block
    position `2K + k`. -/
theorem sum_three_blocks (K : ℕ) (f : Fin (3 * K) → M) :
    ∑ k : Fin (3 * K), f k
      = ((∑ k : Fin K, f ⟨k.val, by have := k.isLt; omega⟩)
          + ∑ k : Fin K, f ⟨K + k.val, by have := k.isLt; omega⟩)
        + ∑ k : Fin K, f ⟨2 * K + k.val, by have := k.isLt; omega⟩ := by
  have e : K + K + K = 3 * K := by omega
  -- re-index the whole sum over `Fin (K + K + K)`, then cut it at `2K` and at `K`
  rw [← Fin.sum_congr' f e, Fin.sum_univ_add, Fin.sum_univ_add]
  refine congrArg₂ (· + ·) (congrArg₂ (· + ·) ?_ ?_) ?_
  · exact Finset.sum_congr rfl fun k _ => congrArg f (Fin.ext rfl)
  · exact Finset.sum_congr rfl fun k _ => congrArg f (Fin.ext rfl)
  · refine Finset.sum_congr rfl fun k _ => congrArg f (Fin.ext ?_)
    show K + K + k.val = 2 * K + k.val
    omega

/-- The same at `K = 128`: a sum over `Fin 384` is the sum over positions `k`, plus the sum over
    positions `128 + k`, plus the sum over positions `256 + k`, `k` running over `Fin 128`. -/
theorem sum_fin384_blocks (f : Fin 384 → M) :
    ∑ k : Fin 384, f k
      = ((∑ k : Fin 128, f ⟨k.val, by have := k.isLt; omega⟩)
          + ∑ k : Fin 128, f ⟨128 + k.val, by have := k.isLt; omega⟩)
        + ∑ k : Fin 128, f ⟨256 + k.val, by have := k.isLt; omega⟩ :=
  sum_three_blocks 128 f

end ConcatDot
-- ==== Proof.PairScore.lean ====
/-
  The function both programs compute, on the extended reals.

  A track row t and a detection row d (256 entries each) are divided by their Euclidean norms, floored at the
  single-precision word nearest 1e-12. The pair (t, d) is joined into the 768-vector [t, d, |t - d|] and sent through a
  768 x 512 linear layer with bias; the 512 hidden entries are centred, scaled by the inverse root of their variance
  (plus the word nearest 1e-5), multiplied by gamma and shifted by beta; each is multiplied by its own logistic; and the
  result is contracted with a 512-vector, plus a scalar bias. One score per (batch, track, detection).

  The linear layer has two arrangements: one sum over the 768 joined positions, or the sum of three sums over 256
  positions against the three row blocks of the weight matrix. They agree because addition of extended reals is
  commutative and associative; no entry need be finite.
-/
import Idealize.ShloMosaic.PureOps.Ideal
import Idealize.ShloMosaic.PureOps.Ideal.Laws
import Idealize.ShloMosaic.Lib.ValueIdx
import proofs.«137321_j24163486007454_1_alg».proof.Proof.LibConcatDot

noncomputable section

namespace PairScore

open Idealize.ShloMosaic Idealize.ShloMosaic.ValueIdx

/-- The floor under a row's norm: the single-precision word nearest 1e-12. -/
abbrev normFloor : EReal := Ideal.ofBits .f32 0x2B8CBCCC#32
/-- The number of hidden entries, 512, as its single-precision word. -/
abbrev width : EReal := Ideal.ofBits .f32 0x44000000#32
/-- The term added to the variance: the single-precision word nearest 1e-5. -/
abbrev varFloor : EReal := Ideal.ofBits .f32 0x3727C5AC#32

/-- The single-precision word of one is the extended real one. -/
theorem ofBits_one : Ideal.ofBits .f32 0x3F800000#32 = 1 := by
  simp [Ideal.ofBits, Ideal.ieee, -EReal.coe_mul]; norm_num

/-- A row divided by its floored Euclidean norm. -/
def unitRow (x : Fin 256 → EReal) (e : Fin 256) : EReal :=
  Ideal.div (x e) (max (Ideal.sqrt (∑ k : Fin 256, x k * x k)) normFloor)

/-- Position `k` of the joined vector [t, d, |t - d|]. -/
def joined (t d : Fin 256 → EReal) (k : Fin 768) : EReal :=
  if h : k.val < 256 then t ⟨k.val, h⟩
  else if h' : k.val < 512 then d ⟨k.val - 256, by omega⟩
  else max (t ⟨k.val - 512, by have := k.isLt; omega⟩ - d ⟨k.val - 512, by have := k.isLt; omega⟩)
        (-(t ⟨k.val - 512, by have := k.isLt; omega⟩ - d ⟨k.val - 512, by have := k.isLt; omega⟩))

/-- The hidden layer as one product of the joined vector with the whole weight matrix. -/
def hiddenJoined (t d : Fin 256 → EReal) (W : Fin 768 → Fin 512 → EReal) (b : Fin 512 → EReal) (h : Fin 512) : EReal :=
  (∑ k : Fin 768, joined t d k * W k h) + b h

/-- The hidden layer as three products, one per row block of the weight matrix. -/
def hiddenSplit (t d : Fin 256 → EReal) (W : Fin 768 → Fin 512 → EReal) (b : Fin 512 → EReal) (h : Fin 512) : EReal :=
  (((∑ k : Fin 256, t k * W ⟨k.val, by have := k.isLt; omega⟩ h)
      + ∑ k : Fin 256, d k * W ⟨256 + k.val, by have := k.isLt; omega⟩ h)
    + ∑ k : Fin 256, max (t k - d k) (-(t k - d k)) * W ⟨512 + k.val, by have := k.isLt; omega⟩ h) + b h

/-- The two arrangements of the hidden layer agree: a sum over 768 positions is the sum of its three blocks of 256. -/
theorem hiddenJoined_eq_split (t d : Fin 256 → EReal) (W : Fin 768 → Fin 512 → EReal) (b : Fin 512 → EReal) (h : Fin 512) :
    hiddenJoined t d W b h = hiddenSplit t d W b h := by
  unfold hiddenJoined hiddenSplit
  refine congrArg (· + b h) ?_
  refine (ConcatDot.sum_three_blocks 256 (fun k : Fin (3 * 256) => joined t d k * W k h)).trans ?_
  refine congrArg₂ (· + ·) (congrArg₂ (· + ·) ?_ ?_) ?_
  · refine Finset.sum_congr rfl fun k _ => ?_
    have hk := k.isLt
    show joined t d ⟨k.val, _⟩ * W ⟨k.val, _⟩ h = _
    unfold joined
    rw [dif_pos (show (⟨k.val, by omega⟩ : Fin 768).val < 256 from hk)]
  · refine Finset.sum_congr rfl fun k _ => ?_
    have hk := k.isLt
    show joined t d ⟨256 + k.val, _⟩ * W ⟨256 + k.val, _⟩ h = _
    unfold joined
    rw [dif_neg (show ¬ (⟨256 + k.val, by omega⟩ : Fin 768).val < 256 from by simp),
      dif_pos (show (⟨256 + k.val, by omega⟩ : Fin 768).val < 512 from by show 256 + k.val < 512; omega)]
    exact congrArg (fun q => d q * W ⟨256 + k.val, by omega⟩ h) (Fin.ext (by show 256 + k.val - 256 = k.val; omega))
  · refine Finset.sum_congr rfl fun k _ => ?_
    have hk := k.isLt
    show joined t d ⟨2 * 256 + k.val, _⟩ * W ⟨2 * 256 + k.val, _⟩ h = _
    unfold joined
    have e : (⟨2 * 256 + k.val - 512, by omega⟩ : Fin 256) = k := Fin.ext (by show 2 * 256 + k.val - 512 = k.val; omega)
    rw [dif_neg (show ¬ (⟨2 * 256 + k.val, by omega⟩ : Fin 768).val < 256 from by show ¬ 2 * 256 + k.val < 256; omega),
      dif_neg (show ¬ (⟨2 * 256 + k.val, by omega⟩ : Fin 768).val < 512 from by show ¬ 2 * 256 + k.val < 512; omega)]
    show max (t ⟨2 * 256 + k.val - 512, _⟩ - d ⟨2 * 256 + k.val - 512, _⟩) (-(t ⟨2 * 256 + k.val - 512, _⟩ - d ⟨2 * 256 + k.val - 512, _⟩)) * W ⟨2 * 256 + k.val, _⟩ h = _
    rw [e]

/-- The mean of 512 entries: their sum divided by the word of 512. -/
def mean (u : Fin 512 → EReal) : EReal := Ideal.div (∑ h : Fin 512, u h) width

/-- Entry `h` centred, scaled by the inverse root of the variance plus its floor, times gamma, plus beta. -/
def normed (u g be : Fin 512 → EReal) (h : Fin 512) : EReal :=
  (u h - mean u) * Ideal.rsqrt (mean (fun j => (u j - mean u) * (u j - mean u)) + varFloor) * g h + be h

/-- A value times its logistic. -/
def silu (z : EReal) : EReal := z * Ideal.logistic z

/-- The score of one pair from its 512 hidden entries. -/
def score (u g be w : Fin 512 → EReal) (b2 : EReal) : EReal :=
  (∑ h : Fin 512, silu (normed u g be h) * w h) + b2

/-- The whole result: at (batch, track, detection) the score of the hidden layer of the two unit rows. The hidden layer is
    given as a parameter so that each program can be set against its own arrangement of it. -/
def scores (hidden : (Fin 256 → EReal) → (Fin 256 → EReal) → (Fin 768 → Fin 512 → EReal) → (Fin 512 → EReal) → Fin 512 → EReal)
    (X Y : (⟨3, ![8, 128, 256]⟩ : Shape).Idx → EReal) (W1 : (⟨2, ![768, 512]⟩ : Shape).Idx → EReal)
    (b1 g be : (⟨1, ![512]⟩ : Shape).Idx → EReal) (W2 : (⟨2, ![512, 1]⟩ : Shape).Idx → EReal) (b2 : (⟨1, ![1]⟩ : Shape).Idx → EReal) :
    (⟨3, ![8, 128, 128]⟩ : Shape).Idx → EReal := fun i =>
  score (hidden (unitRow fun k => X (ix3 (i 0) (i 1) k)) (unitRow fun k => Y (ix3 (i 0) (i 2) k))
      (fun k h => W1 (ix2 k h)) (fun h => b1 (ix1 h)))
    (fun h => g (ix1 h)) (fun h => be (ix1 h)) (fun h => W2 (ix2 h (0 : Fin 1))) (b2 (ix1 (0 : Fin 1)))

/-- The two arrangements give one array of scores. -/
theorem scores_joined_eq_split (X Y : (⟨3, ![8, 128, 256]⟩ : Shape).Idx → EReal) (W1 : (⟨2, ![768, 512]⟩ : Shape).Idx → EReal)
    (b1 g be : (⟨1, ![512]⟩ : Shape).Idx → EReal) (W2 : (⟨2, ![512, 1]⟩ : Shape).Idx → EReal) (b2 : (⟨1, ![1]⟩ : Shape).Idx → EReal) :
    scores hiddenJoined X Y W1 b1 g be W2 b2 = scores hiddenSplit X Y W1 b1 g be W2 b2 := by
  funext i
  unfold scores
  congr 1
  funext h
  exact hiddenJoined_eq_split _ _ _ _ h

end PairScore

end
-- ==== Proof.ReferenceScores.lean ====
/-
  The reference program computes the pair scores.

  Read one stage at a time: the first sixteen stages divide each track row and each detection row by its floored Euclidean
  norm (the unit rows); the concatenation joins, for every (batch, track, detection), the track's unit row, the detection's
  unit row and the absolute value of their difference into 768 positions; the first contraction and its bias are the
  hidden layer in its one-sum arrangement; the remaining stages centre the 512 hidden entries, scale them by the inverse
  root of their variance plus its floor, apply gamma and beta, multiply each by its logistic, contract with the output
  vector and add the scalar bias. Every stage is read at an arbitrary index, so the stages compose by rewriting.
-/
import proofs.«137321_j24163486007454_1_alg».proof.Proof.Gen.ReferenceIdeal.Read
import proofs.«137321_j24163486007454_1_alg».proof.Proof.PairScore
import Idealize.ShloMosaic.Lib.Pipeline.Value
import Idealize.ShloMosaic.Lib.ValueIdx
import Idealize.ShloMosaic.PureOps.Ideal.Laws

noncomputable section

namespace Cert.ReferenceIdeal.RefScores

open Cert.ReferenceIdeal Cert.ReferenceIdeal.Gen Cert.ReferenceIdeal.Read Idealize.ShloMosaic Idealize.ShloMosaic.ValueIdx

/-- A row of the first argument divided by its floored norm: stages 0 to 7. -/
theorem unit_track (x0 : (⟨S8x128x256, .f32⟩ : BufTy).Contents (Elt Ideal)) (j : S8x128x256.Idx) :
    val_main_v7 (F := Ideal) x0 j = PairScore.unitRow (fun k => x0 (ix3 (j 0) (j 1) k)) (j 2) := by
  rw [val_main_v7_apply, val_main_v6_apply, val_main_v5_apply, val_main_v4_apply, val_main_v3_apply, val_main_v2_apply,
    val_main_v1_apply, val_main_cst_apply, val_main_cst_0_apply]
  simp only [val_main_v0_apply]
  unfold PairScore.unitRow
  simp only [Ideal.hostDivf_def, Ideal.hostUnary_sqrt_def, Ideal.maximumf_def, Ideal.mulf_def, Ideal.ofBits_def,
    Ideal.ofBits_zero_f32, zero_add]
  have e : ∀ k : Fin 256, idx_main_v1 (idx_main_v2 (idx_main_v6 j)) k = ix3 (j 0) (j 1) k := fun k =>
    funext fun a => match a with | ⟨0, _⟩ => rfl | ⟨1, _⟩ => rfl | ⟨2, _⟩ => rfl
  simp only [e]
  exact congrArg (fun q => Ideal.div (x0 q) _) (eq_ix3 j)
/-- A row of the second argument divided by its floored norm: stages 8 to 15. -/
theorem unit_det (x1 : (⟨S8x128x256, .f32⟩ : BufTy).Contents (Elt Ideal)) (j : S8x128x256.Idx) :
    val_main_v15 (F := Ideal) x1 j = PairScore.unitRow (fun k => x1 (ix3 (j 0) (j 1) k)) (j 2) := by
  rw [val_main_v15_apply, val_main_v14_apply, val_main_v13_apply, val_main_v12_apply, val_main_v11_apply, val_main_v10_apply,
    val_main_v9_apply, val_main_cst_1_apply, val_main_cst_2_apply]
  simp only [val_main_v8_apply]
  unfold PairScore.unitRow
  simp only [Ideal.hostDivf_def, Ideal.hostUnary_sqrt_def, Ideal.maximumf_def, Ideal.mulf_def, Ideal.ofBits_def,
    Ideal.ofBits_zero_f32, zero_add]
  have e : ∀ k : Fin 256, idx_main_v9 (idx_main_v10 (idx_main_v14 j)) k = ix3 (j 0) (j 1) k := fun k =>
    funext fun a => match a with | ⟨0, _⟩ => rfl | ⟨1, _⟩ => rfl | ⟨2, _⟩ => rfl
  simp only [e]
  exact congrArg (fun q => Ideal.div (x1 q) _) (eq_ix3 j)
/-- The track's unit row spread over the detections: stages 16, 18 and 22. -/
theorem spread_track (x0 : (⟨S8x128x256, .f32⟩ : BufTy).Contents (Elt Ideal)) (i : S8x128x128x256.Idx) :
    val_main_v22 (F := Ideal) x0 i = PairScore.unitRow (fun k => x0 (ix3 (i 0) (i 1) k)) (i 3) := by
  rw [val_main_v22_apply, val_main_v16_apply, unit_track]
  rfl

/-- The detection's unit row spread over the tracks: stages 17, 19 and 23. -/
theorem spread_det (x1 : (⟨S8x128x256, .f32⟩ : BufTy).Contents (Elt Ideal)) (i : S8x128x128x256.Idx) :
    val_main_v23 (F := Ideal) x1 i = PairScore.unitRow (fun k => x1 (ix3 (i 0) (i 2) k)) (i 3) := by
  rw [val_main_v23_apply, val_main_v17_apply, unit_det]
  rfl

/-- The absolute difference of the two unit rows: stages 18 to 21. -/
theorem spread_diff (x0 x1 : (⟨S8x128x256, .f32⟩ : BufTy).Contents (Elt Ideal)) (i : S8x128x128x256.Idx) :
    val_main_v21 (F := Ideal) x0 x1 i
      = max (PairScore.unitRow (fun k => x0 (ix3 (i 0) (i 1) k)) (i 3) - PairScore.unitRow (fun k => x1 (ix3 (i 0) (i 2) k)) (i 3))
          (-(PairScore.unitRow (fun k => x0 (ix3 (i 0) (i 1) k)) (i 3) - PairScore.unitRow (fun k => x1 (ix3 (i 0) (i 2) k)) (i 3))) := by
  rw [val_main_v21_apply, val_main_v20_apply, val_main_v18_apply, val_main_v19_apply, val_main_v16_apply, val_main_v17_apply,
    unit_track, unit_det]
  rfl
/-- The joined vector [t, d, |t - d|]: stage 24, read from the piece that holds the position. -/
theorem joined_read (x0 x1 : (⟨S8x128x256, .f32⟩ : BufTy).Contents (Elt Ideal)) (j : S8x128x128x768.Idx) :
    val_main_v24 (F := Ideal) x0 x1 j
      = PairScore.joined (PairScore.unitRow fun k => x0 (ix3 (j 0) (j 1) k)) (PairScore.unitRow fun k => x1 (ix3 (j 0) (j 2) k)) (j 3) := by
  have hj : (j 3).val < 768 := (j 3).isLt
  unfold val_main_v24 PairScore.joined
  by_cases h1 : (j 3).val < 256
  · rw [dif_pos h1]
    refine (concatenate_apply_piece (α := EReal) (t := S8x128x128x768) (3 : Fin 4)
      [⟨S8x128x128x256, val_main_v22 (F := Ideal) x0⟩, ⟨S8x128x128x256, val_main_v23 (F := Ideal) x1⟩, ⟨S8x128x128x256, val_main_v21 (F := Ideal) x0 x1⟩]
      concatenates_S8x128x128x256_S8x128x128x256_S8x128x128x256_S8x128x128x768_d3 j
      0 (by show (0 : Nat) < 3; omega) S8x128x128x256 (val_main_v22 (F := Ideal) x0) rfl rfl 0 rfl
      (ix4 (j 0) (j 1) (j 2) (⟨(j 3).val, h1⟩ : Fin 256)) ?_ ?_).trans ?_
    · intro b hb
      match b, hb with
      | ⟨0, _⟩, _ => rfl
      | ⟨1, _⟩, _ => rfl
      | ⟨2, _⟩, _ => rfl
      | ⟨3, _⟩, hb => exact absurd rfl hb
    · exact Nat.zero_add _
    · rw [spread_track]
  · rw [dif_neg h1]
    by_cases h2 : (j 3).val < 512
    · rw [dif_pos h2]
      refine (concatenate_apply_piece (α := EReal) (t := S8x128x128x768) (3 : Fin 4)
      [⟨S8x128x128x256, val_main_v22 (F := Ideal) x0⟩, ⟨S8x128x128x256, val_main_v23 (F := Ideal) x1⟩, ⟨S8x128x128x256, val_main_v21 (F := Ideal) x0 x1⟩]
      concatenates_S8x128x128x256_S8x128x128x256_S8x128x128x256_S8x128x128x768_d3 j
        1 (by show (1 : Nat) < 3; omega) S8x128x128x256 (val_main_v23 (F := Ideal) x1) rfl rfl 256 rfl
        (ix4 (j 0) (j 1) (j 2) (⟨(j 3).val - 256, by omega⟩ : Fin 256)) ?_ ?_).trans ?_
      · intro b hb
        match b, hb with
        | ⟨0, _⟩, _ => rfl
        | ⟨1, _⟩, _ => rfl
        | ⟨2, _⟩, _ => rfl
        | ⟨3, _⟩, hb => exact absurd rfl hb
      · show 256 + ((j 3).val - 256) = (j 3).val
        omega
      · rw [spread_det]
    · rw [dif_neg h2]
      refine (concatenate_apply_piece (α := EReal) (t := S8x128x128x768) (3 : Fin 4)
      [⟨S8x128x128x256, val_main_v22 (F := Ideal) x0⟩, ⟨S8x128x128x256, val_main_v23 (F := Ideal) x1⟩, ⟨S8x128x128x256, val_main_v21 (F := Ideal) x0 x1⟩]
      concatenates_S8x128x128x256_S8x128x128x256_S8x128x128x256_S8x128x128x768_d3 j
        2 (by show (2 : Nat) < 3; omega) S8x128x128x256 (val_main_v21 (F := Ideal) x0 x1) rfl rfl 512 rfl
        (ix4 (j 0) (j 1) (j 2) (⟨(j 3).val - 512, by omega⟩ : Fin 256)) ?_ ?_).trans ?_
      · intro b hb
        match b, hb with
        | ⟨0, _⟩, _ => rfl
        | ⟨1, _⟩, _ => rfl
        | ⟨2, _⟩, _ => rfl
        | ⟨3, _⟩, hb => exact absurd rfl hb
      · show 512 + ((j 3).val - 512) = (j 3).val
        omega
      · rw [spread_diff]
/-- The hidden layer in its one-sum arrangement: stages 25 to 28. -/
theorem hidden_read (x0 x1 : (⟨S8x128x256, .f32⟩ : BufTy).Contents (Elt Ideal)) (x2 : (⟨S768x512, .f32⟩ : BufTy).Contents (Elt Ideal))
    (x3 : (⟨S512, .f32⟩ : BufTy).Contents (Elt Ideal)) (j : S8x128x128x512.Idx) :
    val_main_v28 (F := Ideal) x0 x1 x2 x3 j
      = PairScore.hiddenJoined (PairScore.unitRow fun k => x0 (ix3 (j 0) (j 1) k)) (PairScore.unitRow fun k => x1 (ix3 (j 0) (j 2) k))
          (fun k h => x2 (ix2 k h)) (fun h => x3 (ix1 h)) (j 3) := by
  rw [val_main_v28_apply, val_main_v25_apply, val_main_v27_apply, val_main_v26_apply]
  simp only [joined_read]
  unfold PairScore.hiddenJoined
  have er : ∀ k : Fin 768, ridx_main_v25 j k = ix2 k (j 3) := fun k =>
    funext fun a => match a with | ⟨0, _⟩ => rfl | ⟨1, _⟩ => rfl
  have eb : idx_main_v26 (idx_main_v27 j) = ix1 (j 3) := funext fun a => match a with | ⟨0, _⟩ => rfl
  rw [eb]
  simp only [er]
  rfl
/-- The scalar bias: stage 62 casts the one-entry vector to a scalar. -/
theorem bias_read (x7 : (⟨S1, .f32⟩ : BufTy).Contents (Elt Ideal)) (j : S_.Idx) :
    val_main_v62 (F := Ideal) x7 j = x7 (ix1 (0 : Fin 1)) := by
  unfold val_main_v62
  exact shapeCast_apply x7 shapeCasts_S1_S_ j (ix1 (0 : Fin 1)) (by
    have a : (S1.rowMajor (ix1 (0 : Fin 1))).val < 1 := (S1.rowMajor _).isLt
    have b : (S_.rowMajor j).val < 1 := (S_.rowMajor j).isLt
    exact (Nat.lt_one_iff.mp a).trans (Nat.lt_one_iff.mp b).symm)

section Tail

variable (x0 x1 : (⟨S8x128x256, .f32⟩ : BufTy).Contents (Elt Ideal)) (x2 : (⟨S768x512, .f32⟩ : BufTy).Contents (Elt Ideal))
  (x3 x4 x5 : (⟨S512, .f32⟩ : BufTy).Contents (Elt Ideal)) (x6 : (⟨S512x1, .f32⟩ : BufTy).Contents (Elt Ideal))
  (x7 : (⟨S1, .f32⟩ : BufTy).Contents (Elt Ideal))

/-- The 512 hidden entries of the pair (batch a, track b, detection c). -/
abbrev hid (a : Fin 8) (b c : Fin 128) : Fin 512 → EReal :=
  fun h => val_main_v28 (F := Ideal) x0 x1 x2 x3 (ix4 a b c h)

/-- The mean of a pair's hidden entries: stages 29 to 32. -/
theorem mean_read (a : Fin 8) (b c : Fin 128) (z : Fin 1) :
    val_main_v32 (F := Ideal) x0 x1 x2 x3 (ix4 a b c z) = PairScore.mean (hid x0 x1 x2 x3 a b c) := by
  rw [val_main_v32_apply, val_main_v30_apply, val_main_v29_apply, val_main_v31_apply, val_main_cst_3_apply, val_main_cst_4_apply]
  have e : ∀ k : Fin 512, idx_main_v29 (idx_main_v30 (ix4 a b c z)) k = ix4 a b c k := fun k =>
    funext fun d => match d with | ⟨0, _⟩ => rfl | ⟨1, _⟩ => rfl | ⟨2, _⟩ => rfl | ⟨3, _⟩ => rfl
  simp only [e, Ideal.hostDivf_def, Ideal.ofBits_def, Ideal.ofBits_zero_f32, zero_add]
  rfl

/-- A hidden entry less the mean: stages 33 and 34. -/
theorem centred_read (a : Fin 8) (b c : Fin 128) (h : Fin 512) :
    val_main_v34 (F := Ideal) x0 x1 x2 x3 (ix4 a b c h)
      = hid x0 x1 x2 x3 a b c h - PairScore.mean (hid x0 x1 x2 x3 a b c) := by
  rw [val_main_v34_apply, val_main_v33_apply]
  have e : idx_main_v33 (ix4 a b c h) = ix4 a b c (0 : Fin 1) :=
    funext fun d => match d with | ⟨0, _⟩ => rfl | ⟨1, _⟩ => rfl | ⟨2, _⟩ => rfl | ⟨3, _⟩ => rfl
  rw [e, mean_read]
  rfl

/-- The variance of a pair's hidden entries: stages 35 to 39. -/
theorem var_read (a : Fin 8) (b c : Fin 128) (z : Fin 1) :
    val_main_v39 (F := Ideal) x0 x1 x2 x3 (ix4 a b c z)
      = PairScore.mean (fun j => (hid x0 x1 x2 x3 a b c j - PairScore.mean (hid x0 x1 x2 x3 a b c))
          * (hid x0 x1 x2 x3 a b c j - PairScore.mean (hid x0 x1 x2 x3 a b c))) := by
  rw [val_main_v39_apply, val_main_v37_apply, val_main_v36_apply, val_main_v38_apply, val_main_cst_5_apply, val_main_cst_6_apply]
  have e : ∀ k : Fin 512, idx_main_v36 (idx_main_v37 (ix4 a b c z)) k = ix4 a b c k := fun k =>
    funext fun d => match d with | ⟨0, _⟩ => rfl | ⟨1, _⟩ => rfl | ⟨2, _⟩ => rfl | ⟨3, _⟩ => rfl
  simp only [e, val_main_v35_apply, centred_read, Ideal.hostDivf_def, Ideal.mulf_def, Ideal.ofBits_def, Ideal.ofBits_zero_f32, zero_add]
  rfl

/-- The normalised entry, times gamma, plus beta: stages 40 to 52. -/
theorem normed_read (a : Fin 8) (b c : Fin 128) (h : Fin 512) :
    val_main_v52 (F := Ideal) x0 x1 x2 x3 x4 x5 (ix4 a b c h)
      = PairScore.normed (hid x0 x1 x2 x3 a b c) (fun h => x4 (ix1 h)) (fun h => x5 (ix1 h)) h := by
  rw [val_main_v52_apply, val_main_v49_apply, val_main_v46_apply, val_main_v41_apply, val_main_v40_apply, val_main_v45_apply,
    val_main_v44_apply, val_main_v43_apply, val_main_v42_apply, val_main_cst_7_apply, val_main_v48_apply, val_main_v47_apply,
    val_main_v51_apply, val_main_v50_apply]
  have e40 : idx_main_v40 (ix4 a b c h) = ix4 a b c (0 : Fin 1) :=
    funext fun d => match d with | ⟨0, _⟩ => rfl | ⟨1, _⟩ => rfl | ⟨2, _⟩ => rfl | ⟨3, _⟩ => rfl
  have e45 : idx_main_v45 (ix4 a b c h) = ix4 a b c (0 : Fin 1) :=
    funext fun d => match d with | ⟨0, _⟩ => rfl | ⟨1, _⟩ => rfl | ⟨2, _⟩ => rfl | ⟨3, _⟩ => rfl
  have e4 : idx_main_v47 (idx_main_v48 (ix4 a b c h)) = ix1 h := funext fun d => match d with | ⟨0, _⟩ => rfl
  have e5 : idx_main_v50 (idx_main_v51 (ix4 a b c h)) = ix1 h := funext fun d => match d with | ⟨0, _⟩ => rfl
  rw [e40, e45, e4, e5, mean_read, var_read]
  rfl

/-- The normalised entry times its logistic: stages 53 to 59. -/
theorem silu_read (a : Fin 8) (b c : Fin 128) (h : Fin 512) :
    val_main_v59 (F := Ideal) x0 x1 x2 x3 x4 x5 (ix4 a b c h)
      = PairScore.silu (PairScore.normed (hid x0 x1 x2 x3 a b c) (fun h => x4 (ix1 h)) (fun h => x5 (ix1 h)) h) := by
  rw [val_main_v59_apply, val_main_v58_apply, val_main_v57_apply, val_main_cst_9_apply, val_main_v56_apply, val_main_v55_apply,
    val_main_cst_8_apply, val_main_v54_apply, val_main_v53_apply, normed_read]
  unfold PairScore.silu Ideal.logistic
  simp only [Ideal.mulf_def, Ideal.hostDivf_def, Ideal.addf_def, Ideal.hostUnary_exp_def, Ideal.hostNegf_def, Ideal.negf_def,
    Ideal.ofBits_def, PairScore.ofBits_one]

end Tail

/-- One score: stages 60 to 64 contract the 512 activated entries with the output vector and add the scalar bias. -/
theorem score_read (x0 x1 : (⟨S8x128x256, .f32⟩ : BufTy).Contents (Elt Ideal)) (x2 : (⟨S768x512, .f32⟩ : BufTy).Contents (Elt Ideal))
    (x3 x4 x5 : (⟨S512, .f32⟩ : BufTy).Contents (Elt Ideal)) (x6 : (⟨S512x1, .f32⟩ : BufTy).Contents (Elt Ideal))
    (x7 : (⟨S1, .f32⟩ : BufTy).Contents (Elt Ideal)) (a : Fin 8) (b c : Fin 128) :
    val_main_v64 (F := Ideal) x0 x1 x2 x3 x4 x5 x6 x7 (ix3 a b c)
      = PairScore.score (hid x0 x1 x2 x3 a b c) (fun h => x4 (ix1 h)) (fun h => x5 (ix1 h)) (fun h => x6 (ix2 h (0 : Fin 1)))
          (x7 (ix1 (0 : Fin 1))) := by
  rw [val_main_v64_apply, val_main_v61_apply, val_main_v60_apply, val_main_v63_apply, bias_read]
  have ha := a.isLt
  have hb := b.isLt
  have hc := c.isLt
  have el : ∀ k : Fin 512, lidx_main_v60 (idx_main_v61 (ix3 a b c)) k = ix4 a b c k := fun k =>
    funext fun d => Fin.ext (by
      match d with
      | ⟨0, _⟩ => show ((a.val * 128 + b.val) * 128 + c.val) / 16384 = a.val; omega
      | ⟨1, _⟩ => show ((a.val * 128 + b.val) * 128 + c.val) / 128 % 128 = b.val; omega
      | ⟨2, _⟩ => show ((a.val * 128 + b.val) * 128 + c.val) / 1 % 128 = c.val; omega
      | ⟨3, _⟩ => rfl)
  have er : ∀ k : Fin 512, ridx_main_v60 (idx_main_v61 (ix3 a b c)) k = ix2 k (0 : Fin 1) := fun k =>
    funext fun d => match d with | ⟨0, _⟩ => rfl | ⟨1, _⟩ => rfl
  simp only [el, er, silu_read]
  rfl

/-- The reference program computes the pair scores, the hidden layer in its one-sum arrangement. -/
theorem result_eq (x0 x1 : (⟨S8x128x256, .f32⟩ : BufTy).Contents (Elt Ideal)) (x2 : (⟨S768x512, .f32⟩ : BufTy).Contents (Elt Ideal))
    (x3 x4 x5 : (⟨S512, .f32⟩ : BufTy).Contents (Elt Ideal)) (x6 : (⟨S512x1, .f32⟩ : BufTy).Contents (Elt Ideal))
    (x7 : (⟨S1, .f32⟩ : BufTy).Contents (Elt Ideal)) :
    Cert.ReferenceIdeal.Read.val_main_v64 (F := Ideal) x0 x1 x2 x3 x4 x5 x6 x7
      = PairScore.scores PairScore.hiddenJoined x0 x1 x2 x3 x4 x5 x6 x7 := by
  funext i
  obtain ⟨a, b, c, rfl⟩ : ∃ (a : Fin 8) (b c : Fin 128), i = ix3 a b c := ⟨i 0, i 1, i 2, eq_ix3 i⟩
  rw [score_read]
  unfold PairScore.scores
  refine congrArg (fun u => PairScore.score u _ _ _ _) (funext fun h => ?_)
  exact hidden_read x0 x1 x2 x3 (ix4 a b c h)

end Cert.ReferenceIdeal.RefScores

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibRank3Layout.lean ====
/-
  A general lemma file: layout facts for rank-3 vectors read at an index. A vector with a unit axis spread along that axis
  reads its one entry there; a shorter vector recast with unit axes in front, behind or in the middle reads the entry with
  the same row-major position; a matrix [N, c] with N = a·b recast as [a, b, c] (and back) reads row p·b + q at (p, q);
  and a sum along the last axis, at the extended reals, is the sum over that axis's positions. General over the extents.
-/
import Idealize.ShloMosaic.Lib.Pipeline.Value
import Idealize.ShloMosaic.Lib.ValueIdx
import Idealize.ShloMosaic.PureOps.Ideal.Laws

namespace Idealize.ShloMosaic.Rank3Layout

open Idealize.ShloMosaic Idealize.ShloMosaic.ValueIdx

variable {α : Type}

/-- `[a, 1, c]` spread over `b` middle positions reads, at `(p, q, r)`, entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, b, c]` spread over `a` leading positions reads, at `(p, q, r)`, entry `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- `[1, 1, c]` spread over `a · b` leading positions reads, at `(p, q, r)`, entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, b, 1]` spread over `c` lanes reads, at `(p, q, r)`, entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector `[c]` recast as `[1, 1, c]` reads, at `(u, u', r)`, entry `r`. -/
theorem shapeCast_c_11c_apply {c : ℕ} (x : (⟨1, ![c]⟩ : Shape).Idx → α) (h : (⟨1, ![c]⟩ : Shape).ShapeCasts ⟨3, ![1, 1, c]⟩)
    (u u' : Fin 1) (r : Fin c) : shapeCast ⟨3, ![1, 1, c]⟩ x h (ix3 u u' r) = x (ix1 r) :=
  shapeCast_apply x h _ _ (by
    have hu : u.val = 0 := by omega
    have hu' : u'.val = 0 := by omega
    rw [Shape.rowMajor_val_three, Shape.rowMajor_val_one]
    show r.val = (u.val * 1 + u'.val) * c + r.val
    rw [hu, hu']; simp)

/-- A matrix `[a, b]` recast as `[a, b, 1]` reads, at `(p, q, u)`, entry `(p, q)`. -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu]; simp)

/-- `[a, b, c]` recast as the matrix `[N, c]` of its `N = a · b` rows reads, at row `p · b + q`, entry `(p, q, ·)`. -/
theorem shapeCast_abc_Nc_apply {a b c N : ℕ} (x : (⟨3, ![a, b, c]⟩ : Shape).Idx → α) (h : (⟨3, ![a, b, c]⟩ : Shape).ShapeCasts ⟨2, ![N, c]⟩)
    (p : Fin a) (q : Fin b) (r : Fin c) (n : Fin N) (hn : n.val = p.val * b + q.val) :
    shapeCast ⟨2, ![N, c]⟩ x h (ix2 n r) = x (ix3 p q r) :=
  shapeCast_apply x h _ _ (by
    rw [Shape.rowMajor_val_three, Shape.rowMajor_val_two]
    show (p.val * b + q.val) * c + r.val = n.val * c + r.val
    rw [hn])

/-- The matrix `[N, c]` recast as `[a, b, c]` with `N = a · b` reads, at `(p, q, ·)`, row `p · b + q`. -/
theorem shapeCast_Nc_abc_apply {a b c N : ℕ} (x : (⟨2, ![N, c]⟩ : Shape).Idx → α) (h : (⟨2, ![N, c]⟩ : Shape).ShapeCasts ⟨3, ![a, b, c]⟩)
    (p : Fin a) (q : Fin b) (r : Fin c) (n : Fin N) (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A sum along the lanes of a matrix, at the extended reals, read at row `p`: the sum of the row's entries. -/
theorem laneSum2_apply {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun d => Fin.ext ?_)
  rw [Shape.Reduces.lift_val]
  match d with
  | ⟨0, _⟩ => rfl
  | ⟨1, _⟩ => rfl

/-- A sum along the last axis of a rank-3 vector, at the extended reals, read at `(p, q)`: the sum of that fibre's entries. -/
theorem laneSum3_apply {a b c : ℕ} (src : FVec Ideal ⟨3, ![a, b, c]⟩ .f32) (h : (⟨3, ![a, b, c]⟩ : Shape).Reduces [(2 : Fin 3)] ⟨2, ![a, b]⟩)
    (hφ : FKind.Formats .f32) (hacc : (0x00000000#32 : BitVec 32) = FKind.add.neutral .f32 hφ) (p : Fin a) (q : Fin b) :
    multiReduction .add [(2 : Fin 3)] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src (funext fun d => Fin.ext ?_)
  rw [Shape.Reduces.lift_val]
  match d with
  | ⟨0, _⟩ => rfl
  | ⟨1, _⟩ => rfl
  | ⟨2, _⟩ => rfl

end Idealize.ShloMosaic.Rank3Layout
-- ==== Proof.TileRows.lean ====
/-
  The kernel's two loaded tiles, row by row. A grid point loads 16 track rows and all 128 detection rows of one batch
  element (each tile with a leading unit axis), and divides every row by its Euclidean norm floored at the word nearest
  1e-12: the sum of squares along the lanes, its root stood up as a column, the floor taken entrywise, the column spread back
  over the 256 lanes. Read at (row, lane) this is the specification's unit row of that tile row.
-/
import proofs.«137321_j24163486007454_1_alg».proof.Proof.Gen.KernelIdeal.Skeleton
import proofs.«137321_j24163486007454_1_alg».proof.Proof.PairScore
import proofs.«137321_j24163486007454_1_alg».proof.Proof.LibKeepdims
import proofs.«137321_j24163486007454_1_alg».proof.Proof.LibRank3Layout
import Idealize.ShloMosaic.Lib.ValueLayout

noncomputable section

namespace Cert.KernelIdeal.TileScores

open Cert.KernelIdeal Cert.KernelIdeal.Gen Idealize.ShloMosaic Idealize.ShloMosaic.ValueIdx

/-- The 16 track rows of a tile, each divided by its floored norm: at (r, e) the unit row of tile row r, at lane e. -/
theorem unit_track (v0 : Vec Ideal S1x16x256 .f32) (r : Fin 16) (e : Fin 256) :
    k0_pay2 (F := Ideal) v0 (ix2 r e) = PairScore.unitRow (fun k => v0 (ix3 (0 : Fin 1) r k)) e := by
  unfold k0_pay2 PairScore.unitRow
  refine congrArg₂ Ideal.div (shapeCast_1ab_ab_apply v0 _ r e) ?_
  refine (Keepdims.broadcastTo_a1_ab_apply _ _ r e).trans ?_
  refine congrArg₂ max (congrArg Ideal.sqrt ?_) rfl
  refine (Keepdims.shapeCast_a_a1_apply _ _ r (0 : Fin 1)).trans ?_
  refine (Rank3Layout.laneSum2_apply _ _ _ _ r).trans ?_
  refine Finset.sum_congr rfl fun k _ => ?_
  exact congrArg₂ (· * ·) (shapeCast_1ab_ab_apply v0 _ r k) (shapeCast_1ab_ab_apply v0 _ r k)

/-- The 128 detection rows of a tile, each divided by its floored norm. -/
theorem unit_det (v2 : Vec Ideal S1x128x256 .f32) (q : Fin 128) (e : Fin 256) :
    k0_pay3 (F := Ideal) v2 (ix2 q e) = PairScore.unitRow (fun k => v2 (ix3 (0 : Fin 1) q k)) e := by
  unfold k0_pay3 PairScore.unitRow
  refine congrArg₂ Ideal.div (shapeCast_1ab_ab_apply v2 _ q e) ?_
  refine (Keepdims.broadcastTo_a1_ab_apply _ _ q e).trans ?_
  refine congrArg₂ max (congrArg Ideal.sqrt ?_) rfl
  refine (Keepdims.shapeCast_a_a1_apply _ _ q (0 : Fin 1)).trans ?_
  refine (Rank3Layout.laneSum2_apply _ _ _ _ q).trans ?_
  refine Finset.sum_congr rfl fun k _ => ?_
  exact congrArg₂ (· * ·) (shapeCast_1ab_ab_apply v2 _ q k) (shapeCast_1ab_ab_apply v2 _ q k)

end Cert.KernelIdeal.TileScores

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibMiddleUnit.lean ====
/-
  A matrix [a, b] recast with a unit axis in the middle, [a, 1, b], read at an index: entry (i, 0, j) of the result is
  entry (i, j) of the matrix (both are position i·b + j in row-major order). General over the extents.
-/
import Idealize.ShloMosaic.Lib.Pipeline.Value
import Idealize.ShloMosaic.Lib.ValueIdx

namespace Idealize.ShloMosaic.MiddleUnit

open Idealize.ShloMosaic Idealize.ShloMosaic.ValueIdx

variable {α : Type}

/-- A matrix `[a, b]` recast as `[a, 1, b]` reads, at `(i, u, j)`, the matrix at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.MiddleUnit
-- ==== Proof.TileProducts.lean ====
/-
  The kernel's three matrix products, read at an index. The 768 x 512 weight matrix is cut into three blocks of 256 rows.
  The 16 unit track rows meet the first block, the 128 unit detection rows the second, and the 16 · 128 rows |t - d| of
  all (track, detection) pairs of the tile — laid out as one matrix of 2048 rows, pair (r, q) at row 128 r + q — the third.
  Each product goes into a zero accumulator, so at the extended reals an entry is the plain sum over the 256 contracted
  positions (the narrowing of the operands to half precision is the identity there).
-/
import proofs.«137321_j24163486007454_1_alg».proof.Proof.TileRows
import proofs.«137321_j24163486007454_1_alg».proof.Proof.LibPlainDot
import proofs.«137321_j24163486007454_1_alg».proof.Proof.LibMiddleUnit
import proofs.«137321_j24163486007454_1_alg».proof.Proof.LibRank3Layout
import Idealize.ShloMosaic.Lib.ValueLayout

noncomputable section

namespace Cert.KernelIdeal.TileScores

open Cert.KernelIdeal Cert.KernelIdeal.Gen Idealize.ShloMosaic Idealize.ShloMosaic.ValueIdx

/-- The track product's dimension numbers are those of a plain [16, 256] x [256, 512] product. -/
theorem plain_track : PlainDot.IsPlain dot_S16x256_S256x512_S16x512_1_0_0_1_n_n where
  rank := rfl
  size := rfl
  lhs0 := fun i q => by
    unfold DotDims.lhsIdx
    rw [dif_neg (show ¬(0 : Fin S16x256.rank) ∈ dot_S16x256_S256x512_S16x512_1_0_0_1_n_n.lhsBatch by decide), dif_pos (show (0 : Fin S16x256.rank) ∈ dot_S16x256_S256x512_S16x512_1_0_0_1_n_n.lhsNonContracting by decide)]
    rfl
  lhs1 := fun i q => dot_S16x256_S256x512_S16x512_1_0_0_1_n_n.lhsIdx_val_of_single rfl i q
  rhs0 := fun i q => dot_S16x256_S256x512_S16x512_1_0_0_1_n_n.rhsIdx_val_of_single rfl i q
  rhs1 := fun i q => by
    unfold DotDims.rhsIdx
    rw [dif_neg (show ¬(1 : Fin S256x512.rank) ∈ dot_S16x256_S256x512_S16x512_1_0_0_1_n_n.rhsBatch by decide), dif_pos (show (1 : Fin S256x512.rank) ∈ dot_S16x256_S256x512_S16x512_1_0_0_1_n_n.rhsNonContracting by decide)]
    rfl

/-- The detection product's dimension numbers are those of a plain [128, 256] x [256, 512] product. -/
theorem plain_det : PlainDot.IsPlain dot_S128x256_S256x512_S128x512_1_0_0_1_n_n where
  rank := rfl
  size := rfl
  lhs0 := fun i q => by
    unfold DotDims.lhsIdx
    rw [dif_neg (show ¬(0 : Fin S128x256.rank) ∈ dot_S128x256_S256x512_S128x512_1_0_0_1_n_n.lhsBatch by decide), dif_pos (show (0 : Fin S128x256.rank) ∈ dot_S128x256_S256x512_S128x512_1_0_0_1_n_n.lhsNonContracting by decide)]
    rfl
  lhs1 := fun i q => dot_S128x256_S256x512_S128x512_1_0_0_1_n_n.lhsIdx_val_of_single rfl i q
  rhs0 := fun i q => dot_S128x256_S256x512_S128x512_1_0_0_1_n_n.rhsIdx_val_of_single rfl i q
  rhs1 := fun i q => by
    unfold DotDims.rhsIdx
    rw [dif_neg (show ¬(1 : Fin S256x512.rank) ∈ dot_S128x256_S256x512_S128x512_1_0_0_1_n_n.rhsBatch by decide), dif_pos (show (1 : Fin S256x512.rank) ∈ dot_S128x256_S256x512_S128x512_1_0_0_1_n_n.rhsNonContracting by decide)]
    rfl

/-- The pair product's dimension numbers are those of a plain [2048, 256] x [256, 512] product. -/
theorem plain_pair : PlainDot.IsPlain dot_S2048x256_S256x512_S2048x512_1_0_0_1_n_n where
  rank := rfl
  size := rfl
  lhs0 := fun i q => by
    unfold DotDims.lhsIdx
    rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
    rfl
  lhs1 := fun i q => dot_S2048x256_S256x512_S2048x512_1_0_0_1_n_n.lhsIdx_val_of_single rfl i q
  rhs0 := fun i q => dot_S2048x256_S256x512_S2048x512_1_0_0_1_n_n.rhsIdx_val_of_single rfl i q
  rhs1 := fun i q => by
    unfold DotDims.rhsIdx
    rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
    rfl

/-- Track row r against the first weight block, at hidden position h. -/
theorem track_product (v0 : Vec Ideal S1x16x256 .f32) (v20 : Vec Ideal S768x512 .f32) (r : Fin 16) (h : Fin 512) :
    k0_pay4 (F := Ideal) v0 v20 (ix2 r h)
      = ∑ k : Fin 256, k0_pay2 (F := Ideal) v0 (ix2 r k) * v20 (ix2 (⟨k.val, by have := k.isLt; omega⟩ : Fin 768) h) := by
  unfold k0_pay4
  refine (PlainDot.matmul_zero_apply _ plain_track none _ _ r h).trans ?_
  refine Finset.sum_congr rfl fun k _ => ?_
  refine congrArg₂ (fun a b : EReal => a * b) rfl ?_
  exact slice2_axis0_apply 0 v20 slices_S768x512_o0_0_S256x512 k h ⟨k.val, by have := k.isLt; omega⟩ (by simp)

/-- Detection row q against the second weight block, at hidden position h. -/
theorem det_product (v2 : Vec Ideal S1x128x256 .f32) (v20 : Vec Ideal S768x512 .f32) (q : Fin 128) (h : Fin 512) :
    k0_pay5 (F := Ideal) v2 v20 (ix2 q h)
      = ∑ k : Fin 256, k0_pay3 (F := Ideal) v2 (ix2 q k) * v20 (ix2 (⟨256 + k.val, by have := k.isLt; omega⟩ : Fin 768) h) := by
  unfold k0_pay5
  refine (PlainDot.matmul_zero_apply _ plain_det none _ _ q h).trans ?_
  refine Finset.sum_congr rfl fun k _ => ?_
  refine congrArg₂ (fun a b : EReal => a * b) rfl ?_
  exact slice2_axis0_apply 256 v20 slices_S768x512_o256_0_S256x512 k h ⟨256 + k.val, by have := k.isLt; omega⟩ rfl

/-- The pair (track row r, detection row q): |t - d| against the third weight block, at hidden position h. -/
theorem pair_product (v0 : Vec Ideal S1x16x256 .f32) (v2 : Vec Ideal S1x128x256 .f32) (v20 : Vec Ideal S768x512 .f32)
    (r : Fin 16) (q : Fin 128) (h : Fin 512) :
    k0_pay6 (F := Ideal) v0 v2 v20 (ix3 r q h)
      = ∑ k : Fin 256, max (k0_pay2 (F := Ideal) v0 (ix2 r k) - k0_pay3 (F := Ideal) v2 (ix2 q k))
            (-(k0_pay2 (F := Ideal) v0 (ix2 r k) - k0_pay3 (F := Ideal) v2 (ix2 q k)))
          * v20 (ix2 (⟨512 + k.val, by have := k.isLt; omega⟩ : Fin 768) h) := by
  have hr := r.isLt
  have hq := q.isLt
  unfold k0_pay6
  refine (Rank3Layout.shapeCast_Nc_abc_apply _ _ r q h (⟨r.val * 128 + q.val, by omega⟩ : Fin 2048) rfl).trans ?_
  refine (PlainDot.matmul_zero_apply _ plain_pair none _ _ (⟨r.val * 128 + q.val, by omega⟩ : Fin 2048) h).trans ?_
  refine Finset.sum_congr rfl fun k _ => ?_
  refine congrArg₂ (fun a b : EReal => a * b) ?_ (slice2_axis0_apply 512 v20 slices_S768x512_o512_0_S256x512 k h ⟨512 + k.val, by have := k.isLt; omega⟩ rfl)
  refine (Rank3Layout.shapeCast_abc_Nc_apply _ _ r q k (⟨r.val * 128 + q.val, by omega⟩ : Fin 2048) rfl).trans ?_
  have ha : broadcastTo S16x128x256 (shapeCast S16x1x256 (k0_pay2 (F := Ideal) v0) shapeCasts_S16x256_S16x1x256) broadcasts_S16x1x256_S16x128x256 (ix3 r q k)
      = k0_pay2 (F := Ideal) v0 (ix2 r k) :=
    (Rank3Layout.broadcastTo_a1c_abc_apply _ _ r q k).trans (MiddleUnit.shapeCast_ab_a1b_apply _ _ r (0 : Fin 1) k)
  have hb : broadcastTo S16x128x256 (shapeCast S1x128x256 (k0_pay3 (F := Ideal) v2) shapeCasts_S128x256_S1x128x256) broadcasts_S1x128x256_S16x128x256 (ix3 r q k)
      = k0_pay3 (F := Ideal) v2 (ix2 q k) :=
    (Rank3Layout.broadcastTo_1bc_abc_apply _ _ r q k).trans (shapeCast_ab_1ab_apply _ _ (0 : Fin 1) q k)
  exact congrArg₂ (fun a b : EReal => max (a - b) (-(a - b))) ha hb

end Cert.KernelIdeal.TileScores

end
-- ==== Proof.LibColumnVector.lean ====
/-
  A general lemma file: a column `[a, 1]` recast as a vector `[a]`, read at an index. The counterpart of standing
  a vector up as a column: both orders enumerate the same `a` entries, so entry `i` of the vector is entry
  `(i, 0)` of the column. General over the extent `a`.
-/
import Idealize.ShloMosaic.Lib.Pipeline.Value
import Idealize.ShloMosaic.Lib.ValueIdx

namespace Idealize.ShloMosaic.ColumnVector

open Idealize.ShloMosaic Idealize.ShloMosaic.ValueIdx

variable {α : Type}

/-- A column `[a, 1]` recast as a vector `[a]` reads, at `i`, the column's entry `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnVector
-- ==== Proof.TileTail.lean ====
/-
  From the three products to a score, for every (track row, detection row) pair of a tile. The hidden entry h of pair
  (r, q) is the track product's row r plus the detection product's row q plus the pair product's entry (r, q), plus the
  bias — the three products spread over the missing axis and added entrywise. The 512 hidden entries of a pair are then
  centred by their mean, scaled by the inverse root of the mean square deviation plus its floor, multiplied by gamma,
  shifted by beta, multiplied by their own logistic, weighted by the projection column and summed, plus the output bias.
  Read at (r, q) this is the specification's score of the split hidden layer of the two unit rows.
-/
import proofs.«137321_j24163486007454_1_alg».proof.Proof.TileProducts
import proofs.«137321_j24163486007454_1_alg».proof.Proof.LibColumnVector
import proofs.«137321_j24163486007454_1_alg».proof.Proof.LibMiddleUnit
import proofs.«137321_j24163486007454_1_alg».proof.Proof.LibRank3Layout
import Idealize.ShloMosaic.Lib.ValueLayout

noncomputable section

namespace Cert.KernelIdeal.TileScores

open Cert.KernelIdeal Cert.KernelIdeal.Gen Idealize.ShloMosaic Idealize.ShloMosaic.ValueIdx

/-- The hidden entries of all pairs of a tile: the two row products spread over the other row axis, the pair product, and
    the bias spread over all pairs, added in this order. -/
abbrev hiddenVec (A : FVec Ideal S16x512 .f32) (B : FVec Ideal S128x512 .f32) (C : FVec Ideal S16x128x512 .f32)
    (v41 : Vec Ideal S512 .f32) : FVec Ideal S16x128x512 .f32 :=
  addf (addf (addf (broadcastTo S16x128x512 (shapeCast S16x1x512 A shapeCasts_S16x512_S16x1x512) broadcasts_S16x1x512_S16x128x512)
      (broadcastTo S16x128x512 (shapeCast S1x128x512 B shapeCasts_S128x512_S1x128x512) broadcasts_S1x128x512_S16x128x512)) C)
    (broadcastTo S16x128x512 (shapeCast S1x1x512 v41 shapeCasts_S512_S1x1x512) broadcasts_S1x1x512_S16x128x512)

/-- A 512-vector spread over all pairs reads, at (r, q, h), its entry h. -/
theorem rowvec_at (v : Vec Ideal S512 .f32) (r : Fin 16) (q : Fin 128) (h : Fin 512) :
    broadcastTo S16x128x512 (shapeCast S1x1x512 v shapeCasts_S512_S1x1x512) broadcasts_S1x1x512_S16x128x512 (ix3 r q h) = v (ix1 h) :=
  (Rank3Layout.broadcastTo_11c_abc_apply _ _ r q h).trans (Rank3Layout.shapeCast_c_11c_apply _ _ (0 : Fin 1) (0 : Fin 1) h)

/-- The hidden entry h of pair (r, q). -/
theorem hidden_at (A : FVec Ideal S16x512 .f32) (B : FVec Ideal S128x512 .f32) (C : FVec Ideal S16x128x512 .f32)
    (v41 : Vec Ideal S512 .f32) (r : Fin 16) (q : Fin 128) (h : Fin 512) :
    hiddenVec A B C v41 (ix3 r q h) = ((A (ix2 r h) + B (ix2 q h)) + C (ix3 r q h)) + v41 (ix1 h) := by
  refine congrArg₂ (fun a b : EReal => a + b)
    (congrArg₂ (fun a b : EReal => a + b) (congrArg₂ (fun a b : EReal => a + b) ?_ ?_) rfl) (rowvec_at v41 r q h)
  · exact (Rank3Layout.broadcastTo_a1c_abc_apply _ _ r q h).trans (MiddleUnit.shapeCast_ab_a1b_apply _ _ r (0 : Fin 1) h)
  · exact (Rank3Layout.broadcastTo_1bc_abc_apply _ _ r q h).trans (shapeCast_ab_1ab_apply _ _ (0 : Fin 1) q h)

/-- The mean over the 512 lanes of every pair, kept as a trailing unit axis. -/
abbrev meanVec (U : FVec Ideal S16x128x512 .f32) : FVec Ideal S16x128x1 .f32 :=
  divf (shapeCast S16x128x1 (multiReduction .add [2] S16x128 U 0x00000000#32 reduces_S16x128x512_S16x128 (.inl rfl) rfl) shapeCasts_S16x128_S16x128x1)
    (broadcast S16x128x1 (Scalar.ofBits .f32 0x44000000#32))

/-- At pair (r, q) it is the specification's mean of that pair's 512 entries. -/
theorem mean_at (U : FVec Ideal S16x128x512 .f32) (r : Fin 16) (q : Fin 128) (u : Fin 1) :
    meanVec U (ix3 r q u) = PairScore.mean (fun j => U (ix3 r q j)) := by
  refine congrArg₂ Ideal.div ?_ rfl
  exact (Rank3Layout.shapeCast_ab_ab1_apply _ _ r q u).trans (Rank3Layout.laneSum3_apply _ _ _ _ r q)

/-- An entry minus its pair's mean, the mean spread back over the lanes. -/
theorem centred_at (U : FVec Ideal S16x128x512 .f32) (r : Fin 16) (q : Fin 128) (h : Fin 512) :
    subf U (broadcastTo S16x128x512 (meanVec U) broadcasts_S16x128x1_S16x128x512) (ix3 r q h)
      = U (ix3 r q h) - PairScore.mean (fun j => U (ix3 r q j)) :=
  congrArg (fun b : EReal => U (ix3 r q h) - b) ((Rank3Layout.broadcastTo_ab1_abc_apply _ _ r q h).trans (mean_at U r q (0 : Fin 1)))

/-- A value times its logistic, entrywise. -/
theorem silu_at (Z : FVec Ideal S16x128x512 .f32) (i : S16x128x512.Idx) : mulf Z (logistic Z) i = PairScore.silu (Z i) := rfl

/-- The body's last stage at pair (r, q): the specification's score of that pair's hidden entries. -/
theorem tile_score (A : FVec Ideal S16x512 .f32) (B : FVec Ideal S128x512 .f32) (C : FVec Ideal S16x128x512 .f32)
    (v41 v64 v65 : Vec Ideal S512 .f32) (v81 : Vec Ideal S512x1 .f32) (v87 : Vec Ideal S1 .f32) (r : Fin 16) (q : Fin 128) :
    k0_pay7 (F := Ideal) A B C v41 v64 v65 v81 v87 (ix2 r q)
      = PairScore.score (fun h => hiddenVec A B C v41 (ix3 r q h)) (fun h => v64 (ix1 h)) (fun h => v65 (ix1 h))
          (fun h => v81 (ix2 h (0 : Fin 1))) (v87 (ix1 (0 : Fin 1))) := by
  unfold k0_pay7 PairScore.score
  refine congrArg₂ (fun a b : EReal => a + b) ?_ (congrArg v87 (funext fun a => match a with | ⟨0, _⟩ => rfl))
  refine (Rank3Layout.laneSum3_apply _ _ _ _ r q).trans (Finset.sum_congr rfl fun h _ => ?_)
  refine congrArg₂ (fun a b : EReal => a * b) ?_
    ((rowvec_at _ r q h).trans (ColumnVector.shapeCast_a1_a_apply v81 _ h))
  refine (silu_at _ _).trans (congrArg PairScore.silu ?_)
  unfold PairScore.normed
  refine congrArg₂ (fun a b : EReal => a + b)
    (congrArg₂ (fun a b : EReal => a * b)
      (congrArg₂ (fun a b : EReal => a * b) (centred_at _ r q h) ?_) (rowvec_at v64 r q h)) (rowvec_at v65 r q h)
  refine (Rank3Layout.broadcastTo_ab1_abc_apply _ _ r q h).trans
    (congrArg Ideal.rsqrt (congrArg₂ (fun a b : EReal => a + b) ?_ rfl))
  refine congrArg₂ Ideal.div ?_ rfl
  refine (Rank3Layout.shapeCast_ab_ab1_apply _ _ r q (0 : Fin 1)).trans
    ((Rank3Layout.laneSum3_apply _ _ _ _ r q).trans (Finset.sum_congr rfl fun j _ => ?_))
  exact congrArg₂ (fun a b : EReal => a * b) (centred_at _ r q j) (centred_at _ r q j)

/-- The whole body at pair (r, q) of a tile, from the loaded tiles and parameters: the score of the split hidden layer of
    track row r and detection row q, both divided by their floored norms. -/
theorem block_score (P0 : Vec Ideal S1x16x256 .f32) (P1 : Vec Ideal S768x512 .f32) (P2 : Vec Ideal S1x128x256 .f32)
    (P3 P4 P5 : Vec Ideal S512 .f32) (P6 : Vec Ideal S512x1 .f32) (P7 : Vec Ideal S1 .f32) (r : Fin 16) (q : Fin 128) :
    k0_pay7 (F := Ideal) (k0_pay4 P0 P1) (k0_pay5 P2 P1) (k0_pay6 P0 P2 P1) P3 P4 P5 P6 P7 (ix2 r q)
      = PairScore.score
          (PairScore.hiddenSplit (PairScore.unitRow fun k => P0 (ix3 (0 : Fin 1) r k)) (PairScore.unitRow fun k => P2 (ix3 (0 : Fin 1) q k))
            (fun k h => P1 (ix2 k h)) (fun h => P3 (ix1 h)))
          (fun h => P4 (ix1 h)) (fun h => P5 (ix1 h)) (fun h => P6 (ix2 h (0 : Fin 1))) (P7 (ix1 (0 : Fin 1))) := by
  refine (tile_score _ _ _ P3 P4 P5 P6 P7 r q).trans ?_
  refine congrArg (fun u => PairScore.score u (fun h => P4 (ix1 h)) (fun h => P5 (ix1 h)) (fun h => P6 (ix2 h (0 : Fin 1))) (P7 (ix1 (0 : Fin 1))))
    (funext fun h => ?_)
  refine (hidden_at _ _ _ P3 r q h).trans ?_
  unfold PairScore.hiddenSplit
  refine congrArg₂ (fun a b : EReal => a + b)
    (congrArg₂ (fun a b : EReal => a + b) (congrArg₂ (fun a b : EReal => a + b) ?_ ?_) ?_) rfl
  · refine (track_product P0 P1 r h).trans (Finset.sum_congr rfl fun k _ => ?_)
    exact congrArg (fun a : EReal => a * P1 (ix2 (⟨k.val, by have := k.isLt; omega⟩ : Fin 768) h)) (unit_track P0 r k)
  · refine (det_product P2 P1 q h).trans (Finset.sum_congr rfl fun k _ => ?_)
    exact congrArg (fun a : EReal => a * P1 (ix2 (⟨256 + k.val, by have := k.isLt; omega⟩ : Fin 768) h)) (unit_det P2 q k)
  · refine (pair_product P0 P2 P1 r q h).trans (Finset.sum_congr rfl fun k _ => ?_)
    exact congrArg₂ (fun a b : EReal => max (a - b) (-(a - b)) * P1 (ix2 (⟨512 + k.val, by have := k.isLt; omega⟩ : Fin 768) h))
      (unit_track P0 r k) (unit_det P2 q k)

end Cert.KernelIdeal.TileScores

end
-- ==== Proof.ScoreArray.lean ====
/-
  From tiles to the whole array of scores. The grid has 8 x 8 points: point (b, n) loads track rows 16 n … 16 n + 15 and
  all 128 detection rows of batch element b, the whole weight matrix and parameter vectors, and writes the 16 x 128 tile of
  scores of those pairs to rows 16 n … 16 n + 15 of batch element b of the output. So entry (b, 16 n + r, q) of the output
  is the tile's entry (r, q): the score of track row 16 n + r and detection row q of batch element b — one function of
  the argument arrays at every index. The 64 tiles cover the output: entry (b, i, q) lies in the tile of point (b, i / 16).
-/
import proofs.«137321_j24163486007454_1_alg».proof.Proof.Gen.KernelIdeal.Value
import proofs.«137321_j24163486007454_1_alg».proof.Proof.TileTail
import Idealize.ShloMosaic.Lib.Pipeline.Value

noncomputable section

namespace Cert.KernelIdeal.ScoreArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The scores of all pairs, from the argument arrays of device c. -/
abbrev scoresOf (c : Dev nD) : S8x128x128.Idx → EReal :=
  PairScore.scores PairScore.hiddenSplit (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What the body leaves in the output tile, from the loaded tiles and parameters: at (·, r, q) the score of tile rows r and q. -/
theorem tile_eq (x0 : Vec Ideal S1x16x256 .f32) (x1 : Vec Ideal S1x128x256 .f32) (x2 : Vec Ideal S768x512 .f32)
    (x3 x4 x5 : Vec Ideal S512 .f32) (x6 : Vec Ideal S512x1 .f32) (x7 : Vec Ideal S1 .f32) (y : S1x16x128.Idx) :
    out0_8 (F := Ideal) x0 x1 x2 x3 x4 x5 x6 x7 y
      = PairScore.score
          (PairScore.hiddenSplit (PairScore.unitRow fun k => x0 (ix3 (0 : Fin 1) (y 1) k)) (PairScore.unitRow fun k => x1 (ix3 (0 : Fin 1) (y 2) k))
            (fun k h => x2 (ix2 k h)) (fun h => x3 (ix1 h)))
          (fun h => x4 (ix1 h)) (fun h => x5 (ix1 h)) (fun h => x6 (ix2 h (0 : Fin 1))) (x7 (ix1 (0 : Fin 1))) := by
  unfold out0_8
  simp only [View.ld_unit_zero (S := S1x16x256) zeros3, View.ld_unit_zero (S := S1x128x256) zeros3, View.ld_unit_zero (S := S768x512) zeros2,
    View.ld_unit_zero (S := S512) zeros1, View.ld_unit_zero (S := S512x1) zeros2, View.ld_unit_zero (S := S1) zeros1]
  refine (Value.canon8_eq x0 x2 x1 x3 x4 x5 x6 x7 y).trans ?_
  obtain ⟨u, r, q, rfl⟩ : ∃ (u : Fin 1) (r : Fin 16) (q : Fin 128), y = ix3 u r q := ⟨y 0, y 1, y 2, eq_ix3 y⟩
  have e : Value.ix8_0 (ix3 u r q) = ix2 r q := funext fun a => match a with | ⟨0, _⟩ => rfl | ⟨1, _⟩ => rfl
  show k0_pay7 (F := Ideal) (k0_pay4 x0 x2) (k0_pay5 x1 x2) (k0_pay6 x0 x1 x2) x3 x4 x5 x6 x7 (Value.ix8_0 (ix3 u r q)) = _
  rw [e]
  exact TileScores.block_score x0 x2 x1 x3 x4 x5 x6 x7 r q

/-- The printed index maps, decided over the 64 grid points: the track tile moves with the output tile on the batch and row
    axes, the detection tile on the batch axis only, every other input is the whole array at every point, and the output's
    block indices stay in range. -/
theorem idx_facts : ∀ t : Fin cfg0.N,
    win0_0.index t (0 : Fin 3) = win0_8.index t (0 : Fin 3) ∧ win0_0.index t (1 : Fin 3) = win0_8.index t (1 : Fin 3)
    ∧ win0_0.index t (2 : Fin 3) = 0
    ∧ win0_1.index t (0 : Fin 3) = win0_8.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 2) = 0 ∧ win0_6.index t (1 : Fin 2) = 0 ∧ win0_7.index t (0 : Fin 1) = 0
    ∧ win0_8.index t (2 : Fin 3) = 0 ∧ win0_8.index t (0 : Fin 3) ≤ 7 ∧ win0_8.index t (1 : Fin 3) ≤ 7 :=
  (by decide +kernel : ∀ t : Fin grid0.N, _)

/-- Every (batch element, row tile) is some point's output block. -/
theorem idx_onto : ∀ (b : Fin 8) (n : Fin 8), ∃ t : Fin cfg0.N, win0_8.index t = ![b.val, n.val, 0] :=
  (by decide +kernel : ∀ (b : Fin 8) (n : Fin 8), ∃ t : Fin grid0.N, win0_8.index t = ![b.val, n.val, 0])

/-- What point t writes back is block t of the array of scores. -/
theorem flushed_eq (c : Dev nD) (t : Fin cfg0.N) :
    (dats m 0 c).flushed 8 t = ((cfg0.win 8).blk t).view.read (Elt Ideal) (scoresOf m c) := by
  rw [Value.flushed8]
  obtain ⟨e00, e01, e02, e10, e11, e12, e20, e21, e3, e4, e5, e60, e61, e7, e82, b80, b81⟩ := idx_facts t
  funext j
  have hj0 : (j 0).val < 1 := (j 0).isLt
  have hj1 : (j 1).val < 16 := (j 1).isLt
  have hj2 : (j 2).val < 128 := (j 2).isLt
  show out0_8 (F := Ideal) (iblk m c 0 t) (iblk m c 1 t) (iblk m c 2 t) (iblk m c 3 t) (iblk m c 4 t) (iblk m c 5 t) (iblk m c 6 t) (iblk m c 7 t) j
    = scoresOf m c (((cfg0.win 8).blk t).view.emb j)
  refine (tile_eq (iblk m c 0 t) (iblk m c 1 t) (iblk m c 2 t) (iblk m c 3 t) (iblk m c 4 t) (iblk m c 5 t) (iblk m c 6 t) (iblk m c 7 t) j).trans ?_
  have h0 : ∀ k : Fin 256, iblk m c 0 t (ix3 (0 : Fin 1) (j 1) k)
      = V m c main_arg0 (ix3 ((((cfg0.win 8).blk t).view.emb j) 0) ((((cfg0.win 8).blk t).view.emb j) 1) k) := fun k => by
    show V m c main_arg0 (((cfg0.win 0).blk t).view.emb (ix3 (0 : Fin 1) (j 1) k)) = _
    refine congrArg (V m c main_arg0) (funext fun a => Fin.ext ?_)
    match a with
    | ⟨0, _⟩ => show win0_0.index t (0 : Fin 3) * 1 + 1 * 0 = win0_8.index t (0 : Fin 3) * 1 + 1 * (j 0).val; omega
    | ⟨1, _⟩ => show win0_0.index t (1 : Fin 3) * 16 + 1 * (j 1).val = win0_8.index t (1 : Fin 3) * 16 + 1 * (j 1).val; omega
    | ⟨2, _⟩ => show win0_0.index t (2 : Fin 3) * 256 + 1 * k.val = k.val; omega
  have h1 : ∀ k : Fin 256, iblk m c 1 t (ix3 (0 : Fin 1) (j 2) k)
      = V m c main_arg1 (ix3 ((((cfg0.win 8).blk t).view.emb j) 0) ((((cfg0.win 8).blk t).view.emb j) 2) k) := fun k => by
    show V m c main_arg1 (((cfg0.win 1).blk t).view.emb (ix3 (0 : Fin 1) (j 2) k)) = _
    refine congrArg (V m c main_arg1) (funext fun a => Fin.ext ?_)
    match a with
    | ⟨0, _⟩ => show win0_1.index t (0 : Fin 3) * 1 + 1 * 0 = win0_8.index t (0 : Fin 3) * 1 + 1 * (j 0).val; omega
    | ⟨1, _⟩ => show win0_1.index t (1 : Fin 3) * 128 + 1 * (j 2).val = win0_8.index t (2 : Fin 3) * 128 + 1 * (j 2).val; omega
    | ⟨2, _⟩ => show win0_1.index t (2 : Fin 3) * 256 + 1 * k.val = k.val; omega
  have h2 : ∀ (k : Fin 768) (h : Fin 512), iblk m c 2 t (ix2 k h) = V m c main_arg2 (ix2 k h) := fun k h => by
    show V m c main_arg2 (((cfg0.win 2).blk t).view.emb (ix2 k h)) = _
    refine congrArg (V m c main_arg2) (funext fun a => Fin.ext ?_)
    match a with
    | ⟨0, _⟩ => show win0_2.index t (0 : Fin 2) * 768 + 1 * k.val = k.val; omega
    | ⟨1, _⟩ => show win0_2.index t (1 : Fin 2) * 512 + 1 * h.val = h.val; omega
  have h3 : ∀ h : Fin 512, iblk m c 3 t (ix1 h) = V m c main_arg3 (ix1 h) := fun h => by
    show V m c main_arg3 (((cfg0.win 3).blk t).view.emb (ix1 h)) = _
    refine congrArg (V m c main_arg3) (funext fun a => Fin.ext ?_)
    match a with
    | ⟨0, _⟩ => show win0_3.index t (0 : Fin 1) * 512 + 1 * h.val = h.val; omega
  have h4 : ∀ h : Fin 512, iblk m c 4 t (ix1 h) = V m c main_arg4 (ix1 h) := fun h => by
    show V m c main_arg4 (((cfg0.win 4).blk t).view.emb (ix1 h)) = _
    refine congrArg (V m c main_arg4) (funext fun a => Fin.ext ?_)
    match a with
    | ⟨0, _⟩ => show win0_4.index t (0 : Fin 1) * 512 + 1 * h.val = h.val; omega
  have h5 : ∀ h : Fin 512, iblk m c 5 t (ix1 h) = V m c main_arg5 (ix1 h) := fun h => by
    show V m c main_arg5 (((cfg0.win 5).blk t).view.emb (ix1 h)) = _
    refine congrArg (V m c main_arg5) (funext fun a => Fin.ext ?_)
    match a with
    | ⟨0, _⟩ => show win0_5.index t (0 : Fin 1) * 512 + 1 * h.val = h.val; omega
  have h6 : ∀ h : Fin 512, iblk m c 6 t (ix2 h (0 : Fin 1)) = V m c main_arg6 (ix2 h (0 : Fin 1)) := fun h => by
    show V m c main_arg6 (((cfg0.win 6).blk t).view.emb (ix2 h (0 : Fin 1))) = _
    refine congrArg (V m c main_arg6) (funext fun a => Fin.ext ?_)
    match a with
    | ⟨0, _⟩ => show win0_6.index t (0 : Fin 2) * 512 + 1 * h.val = h.val; omega
    | ⟨1, _⟩ => show win0_6.index t (1 : Fin 2) * 1 + 1 * 0 = 0; omega
  have h7 : iblk m c 7 t (ix1 (0 : Fin 1)) = V m c main_arg7 (ix1 (0 : Fin 1)) := by
    show V m c main_arg7 (((cfg0.win 7).blk t).view.emb (ix1 (0 : Fin 1))) = _
    refine congrArg (V m c main_arg7) (funext fun a => Fin.ext ?_)
    match a with
    | ⟨0, _⟩ => show win0_7.index t (0 : Fin 1) * 1 + 1 * 0 = 0; omega
  exact congr (congr (congr (congr (congrArg PairScore.score
    (congr (congr (congr (congrArg PairScore.hiddenSplit (congrArg PairScore.unitRow (funext h0))) (congrArg PairScore.unitRow (funext h1)))
      (funext fun k => funext fun h => h2 k h)) (funext h3))) (funext h4)) (funext h5)) (funext h6)) h7

/-- An index of the output is in point t's block iff each coordinate is in the block's range on its axis. -/
theorem mem_blk (t : Fin cfg0.N) (i : S8x128x128.Idx) :
    i ∈ ((cfg0.win 8).blk t).view.set ↔ ∀ a : Fin 3, win0_8.index t a * S1x16x128.size a ≤ (i a).val ∧ (i a).val < win0_8.index t a * S1x16x128.size a + S1x16x128.size a := by
  show i ∈ ((View.whole main_v0).slice (win0_8.rect t)).set ↔ _
  rw [View.set_slice_whole, Rect.mem_set_unit]
  exact Iff.rfl

/-- The 64 tiles cover the output: (b, i, q) is in the block of the point with block indices (b, i / 16, 0). -/
theorem cover (i : S8x128x128.Idx) : ∃ t : Fin cfg0.N, (cfg0.win 8).flush t = true ∧ i ∈ ((cfg0.win 8).blk t).view.set := by
  have hi0 : (i 0).val < 8 := (i 0).isLt
  have hi1 : (i 1).val < 128 := (i 1).isLt
  have hi2 : (i 2).val < 128 := (i 2).isLt
  obtain ⟨t, ht⟩ := idx_onto ⟨(i 0).val, hi0⟩ ⟨(i 1).val / 16, by omega⟩
  have q0 : win0_8.index t (0 : Fin 3) = (i 0).val := congrFun ht 0
  have q1 : win0_8.index t (1 : Fin 3) = (i 1).val / 16 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 16 ≤ (i 1).val ∧ (i 1).val < win0_8.index t (1 : Fin 3) * 16 + 16; omega
  | ⟨2, _⟩ => show win0_8.index t (2 : Fin 3) * 128 ≤ (i 2).val ∧ (i 2).val < win0_8.index t (2 : Fin 3) * 128 + 128; omega

/-- The output array after the run is the array of scores. -/
theorem final (c : Dev nD) : (dats m 0 c).arrAt 8 cfg0.N = scoresOf m c :=
  (dats m 0 c).arrAt_eq_of_cover 8 (scoresOf m c) (fun t _ => flushed_eq m c t) cover

/-- The kernel's run: the output holds the scores of the argument arrays, and the arguments are unchanged. -/
theorem run : θ_run defs (onTc (τ := τ) (main (F := Ideal))) ⟨m, fun _ => 0, ρ⟩ fun r => ∀ c : Dev nD,
      r.2.mem ((c : Thread nD τ).loc main_v0) = scoresOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ScoreArray

end
-- ==== Proof.lean ====
/-
  The kernel and its reference compute the same array of pair scores on the extended reals.

  For every batch element b, track row n and detection row q: both rows are divided by their Euclidean norms (floored at
  the word nearest 1e-12); the 768-vector [t, d, |t - d|] goes through a linear layer to 512 hidden entries, which are
  centred and scaled by the inverse root of their variance (plus the word nearest 1e-5), multiplied by gamma, shifted by
  beta, multiplied by their own logistic, and contracted with a 512-vector plus a scalar bias.

  The reference joins the three pieces and takes one product with the whole 768 x 512 weight matrix. The kernel never
  builds the joined vector: per grid point it takes the 16 track rows against the first 256 weight rows, the 128 detection
  rows against the next 256, and the 2048 rows |t - d| against the last 256, and adds the three. A sum over 768 positions
  is the sum of its three blocks of 256, and addition of extended reals is commutative and associative, so the two
  arrangements agree at every input; the precondition is not needed for the value. Everything after the hidden layer is the
  same operations on both sides (the kernel's logistic is by definition 1 / (1 + exp(-x)), which the reference spells out),
  and the narrowing of the matrix operands to half precision is the identity on the extended reals.

  The kernel's frame and its run with the output named are generated; the reference's run and its stages read at an index
  are generated. Written here: the specification (PairScore), the reference's stages as the specification
  (ReferenceScores), the kernel's tile as the specification (TileRows, TileProducts, TileTail), the tiles covering the
  output (ScoreArray), and the five claims below.
-/
import proofs.«137321_j24163486007454_1_alg».proof.Defs
import proofs.«137321_j24163486007454_1_alg».proof.Proof.Gen.Kernel
import proofs.«137321_j24163486007454_1_alg».proof.Proof.Gen.Kernel.Skeleton
import proofs.«137321_j24163486007454_1_alg».proof.Proof.Gen.Kernel.Launch
import proofs.«137321_j24163486007454_1_alg».proof.Proof.Gen.Kernel.Points
import proofs.«137321_j24163486007454_1_alg».proof.Proof.Gen.Kernel.Frame
import proofs.«137321_j24163486007454_1_alg».proof.Proof.Gen.KernelIdeal
import proofs.«137321_j24163486007454_1_alg».proof.Proof.Gen.KernelIdeal.Skeleton
import proofs.«137321_j24163486007454_1_alg».proof.Proof.Gen.KernelIdeal.Launch
import proofs.«137321_j24163486007454_1_alg».proof.Proof.Gen.KernelIdeal.Points
import proofs.«137321_j24163486007454_1_alg».proof.Proof.Gen.KernelIdeal.Frame
import proofs.«137321_j24163486007454_1_alg».proof.Proof.Gen.KernelIdeal.Value
import proofs.«137321_j24163486007454_1_alg».proof.Proof.Gen.ReferenceIdeal
import proofs.«137321_j24163486007454_1_alg».proof.Proof.Gen.ReferenceIdeal.Run
import proofs.«137321_j24163486007454_1_alg».proof.Proof.Gen.ReferenceIdeal.Read
import proofs.«137321_j24163486007454_1_alg».proof.Proof.Gen.Pre_finite_inputs
import proofs.«137321_j24163486007454_1_alg».proof.Proof.PairScore
import proofs.«137321_j24163486007454_1_alg».proof.Proof.ReferenceScores
import proofs.«137321_j24163486007454_1_alg».proof.Proof.ScoreArray
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_kernel : Cert.frame_Kernel := fun m ρ _ => Cert.Kernel.Gen.frame m ρ

/-- The kernel read on the extended reals runs, and leaves its arguments unchanged. -/
theorem frame_kernelIdeal : Cert.frame_KernelIdeal := fun m ρ _ => Cert.KernelIdeal.Gen.frame m ρ

/-- The reference runs, and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories that agree on the eight arguments, the kernel's output and the reference's result are the same array:
    the scores of the split hidden layer (the kernel's tiles) are the scores of the joined one (the reference's stages). -/
theorem algebraic : Cert.algebraic_KernelIdeal_ReferenceIdeal := by
  intro m ρ m' ρ' _ hagree
  refine ⟨fun c => Cert.KernelIdeal.ScoreArray.scoresOf m c, Cert.KernelIdeal.ScoreArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v64_eq, Cert.ReferenceIdeal.RefScores.result_eq, PairScore.scores_joined_eq_split,
    a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
